-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v126)) (v1 : (c : Dev Cert.KernelIdeal.nD) → Buf (Elt Ideal) ((c.tc : Thread Cert.KernelIdeal.nD Cert.KernelIdeal.τ).loc Cert.KernelIdeal.main_v127)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v126) = v0 c
          ∧ r.2.mem ((c.tc : Thread Cert.KernelIdeal.nD Cert.KernelIdeal.τ).loc Cert.KernelIdeal.main_v127) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_v166) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x112 : Shape := ⟨2, ![50000, 112]⟩
abbrev S2x600000 : Shape := ⟨2, ![2, 600000]⟩
abbrev S50000x16 : Shape := ⟨2, ![50000, 16]⟩
abbrev S600000 : Shape := ⟨1, ![600000]⟩
abbrev S4x128x128 : Shape := ⟨3, ![4, 128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x112 : S_.BroadcastsInDim S50000x112 (![] : Fin 0 → Fin S50000x112.rank)
  reducesTo_S50000x112_S_d0_1 : S50000x112.ReducesTo [0, 1] S_
  h_S_ : 0 < S_.numel
  bcast_S_S50000x16 : S_.BroadcastsInDim S50000x16 (![] : Fin 0 → Fin S50000x16.rank)
  reducesTo_S50000x16_S_d0_1 : S50000x16.ReducesTo [0, 1] S_
  bcast_S_S600000 : S_.BroadcastsInDim S600000 (![] : Fin 0 → Fin S600000.rank)
  reducesTo_S600000_S_d0 : S600000.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S128x64 .f32) (main_arg9 : FVec F S64 .f32) (main_arg10 : FVec F S128x64 .f32) (main_arg11 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S128 .f32) (main_arg6 : FVec F S4x128x128 .f32) (main_arg7 : FVec F S128 .f32) (main_arg8 : FVec F S128x64 .f32) (main_arg9 : FVec F S64 .f32) (main_arg10 : FVec F S128x64 .f32) (main_arg11 : FVec F S64 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S4x128x128 .f32 := Host.absf main_arg6
  let main_cst_8 : FVec F S_ .f32 := constant S_ .f32 0x7F800000#32
  let main_v25 : FVec F S4x128x128 .f32 := broadcastInDim S4x128x128 ![] bcast_S_S4x128x128 main_cst_8
  let main_v26 : IVec S4x128x128 1 := cmpf .olt main_v24 main_v25
  let main_c_9 : IVec S_ 1 := constantI S_ 1 1#1
  let main_v27 : IVec S_ 1 := (fun x v => Host.reduce IntOp.andi x v reducesTo_S4x128x128_S_d0_1_2 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x112 .f32) (main_arg1 : IVec S2x600000 32) (main_arg2 : FVec F S50000x16 .f32) (main_arg3 : FVec F S600000 .f32) (main_arg4 : FVec F S4x128x128 .f32) (main_arg5 : FVec F S128 .f32) (main_arg6 : FVec F S4x128x128 .f32) (main_arg7 : FVec F S128 .f32) (main_arg8 : FVec F S128x64 .f32) (main_arg9 : FVec F S64 .f32) (main_arg10 : FVec F S128x64 .f32) (main_arg11 : FVec F S64 .f32) : IVec S_ 1 :=
  let main_v0 : FVec F S50000x112 .f32 := Host.absf main_arg0
  let main_cst : FVec F S_ .f32 := constant S_ .f32 0x7F800000#32
  let main_v1 : FVec F S50000x112 .f32 := broadcastInDim S50000x112 ![] bcast_S_S50000x112 main_cst
  let main_v2 : IVec S50000x112 1 := cmpf .olt main_v0 main_v1
  let main_c : IVec S_ 1 := constantI S_ 1 1#1
  let main_v3 : IVec S_ 1 := (fun x v => Host.reduce IntOp.andi x v reducesTo_S50000x112_S_d0_1 h_S_) main_v2 main_c
  let main_v4 : FVec F S50000x16 .f32 := Host.absf main_arg2
  let main_cst_0 : FVec F S_ .f32 := constant S_ .f32 0x7F800000#32
  let main_v5 : FVec F S50000x16 .f32 := broadcastInDim S50000x16 ![] bcast_S_S50000x16 main_cst_0
  let main_v6 : IVec S50000x16 1 := cmpf .olt main_v4 main_v5
  let main_c_1 : IVec S_ 1 := constantI S_ 1 1#1
  let main_v7 : IVec S_ 1 := (fun x v => Host.reduce IntOp.andi x v reducesTo_S50000x16_S_d0_1 h_S_) main_v6 main_c_1
  let main_v8 : IVec S_ 1 := andi main_v3 main_v7
  let main_v9 : FVec F S600000 .f32 := Host.absf main_arg3
  let main_cst_2 : FVec F S_ .f32 := constant S_ .f32 0x7F800000#32
  let main_v10 : FVec F S600000 .f32 := broadcastInDim S600000 ![] bcast_S_S600000 main_cst_2
  let main_v11 : IVec S600000 1 := cmpf .olt main_v9 main_v10
  let main_c_3 : IVec S_ 1 := constantI S_ 1 1#1
  let main_v12 : IVec S_ 1 := (fun x v => Host.reduce IntOp.andi x v reducesTo_S600000_S_d0 h_S_) main_v11 main_c_3
  let main_v13 : IVec S_ 1 := andi main_v8 main_v12
  let main_v14 : FVec F S4x128x128 .f32 := Host.absf main_arg4
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg5 main_arg6 main_arg7 main_arg8 main_arg9 main_arg10 main_arg11 main_v13 main_v16
-- ==== Kernel.lean ====
abbrev S50000x112 : Shape := ⟨2, ![50000, 112]⟩
abbrev S2x600000 : Shape := ⟨2, ![2, 600000]⟩
abbrev S50000x16 : Shape := ⟨2, ![50000, 16]⟩
abbrev S600000 : Shape := ⟨1, ![600000]⟩
abbrev S4x128x128 : Shape := ⟨3, ![4, 128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S_ : Shape := ⟨0, ![]⟩
abbrev S50000 : Shape := ⟨1, ![50000]⟩
abbrev S600000x1 : Shape := ⟨2, ![600000, 1]⟩
abbrev S50000x128 : Shape := ⟨2, ![50000, 128]⟩
abbrev S600000x128 : Shape := ⟨2, ![600000, 128]⟩
abbrev S2000x128 : Shape := ⟨2, ![2000, 128]⟩
abbrev S1x128x128 : Shape := ⟨3, ![1, 128, 128]⟩
abbrev S128x128 : Shape := ⟨2, ![128, 128]⟩
abbrev S1x128 : Shape := ⟨2, ![1, 128]⟩
abbrev S50000x64 : Shape := ⟨2, ![50000, 64]⟩

abbrev nBuf : Space → Nat
  | .hbm => 172
  | .vmem => 30
  | .smem => 0
  | _ => 0

abbrev hbmTy0_0 (i : Nat) : BufTy := match i % 128 with
  | 0 => ⟨S50000x112, .f32⟩
  | 1 => ⟨S2x600000, .i32⟩
  | 2 => ⟨S50000x16, .f32⟩
  | 3 => ⟨S600000, .f32⟩
  | 4 => ⟨S4x128x128, .f32⟩
  | 5 => ⟨S128, .f32⟩
  | 6 => ⟨S4x128x128, .f32⟩
  | 7 => ⟨S128, .f32⟩
  | 8 => ⟨S128x64, .f32⟩
  | 9 => ⟨S64, .f32⟩
  | 10 => ⟨S128x64, .f32⟩
  | 11 => ⟨S64, .f32⟩
  | 12 => ⟨S1x600000, .i32⟩
  | 13 => ⟨S600000, .i32⟩
  | 14 => ⟨S1x600000, .i32⟩
  | 15 => ⟨S600000, .i32⟩
  | 16 => ⟨S_, .f32⟩
  | 17 => ⟨S50000, .f32⟩
  | 18 => ⟨S600000x1, .i32⟩
  | 19 => ⟨S50000, .f32⟩
  | 20 => ⟨S_, .f32⟩
  | 21 => ⟨S50000, .f32⟩
  | 22 => ⟨S50000, .i1⟩
  | 23 => ⟨S_, .f32⟩
  | 24 => ⟨S50000, .f32⟩
  | 25 => ⟨S50000, .f32⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S600000, .i32⟩
  | 33 => ⟨S600000, .i1⟩
  | 34 => ⟨S_, .i32⟩
  | 35 => ⟨S600000, .i32⟩
  | 36 => ⟨S600000, .i32⟩
  | 37 => ⟨S600000, .i32⟩
  | 38 => ⟨S600000x1, .i32⟩
  | 39 => ⟨S600000, .f32⟩
  | 40 => ⟨S600000, .f32⟩
  | 41 => ⟨S600000, .f32⟩
  | 42 => ⟨S_, .i32⟩
  | 43 => ⟨S600000, .i32⟩
  | 44 => ⟨S600000, .i1⟩
  | 45 => ⟨S_, .i32⟩
  | 46 => ⟨S600000, .i32⟩
  | 47 => ⟨S600000, .i32⟩
  | 48 => ⟨S600000, .i32⟩
  | 49 => ⟨S600000x1, .i32⟩
  | 50 => ⟨S600000, .f32⟩
  | 51 => ⟨S600000, .f32⟩
  | 52 => ⟨S50000x128, .f32⟩
  | 53 => ⟨S600000x1, .f32⟩
  | 54 => ⟨S_, .i32⟩
  | 55 => ⟨S600000, .i32⟩
  | 56 => ⟨S600000, .i1⟩
  | 57 => ⟨S_, .i32⟩
  | 58 => ⟨S600000, .i32⟩
  | 59 => ⟨S600000, .i32⟩
  | 60 => ⟨S600000, .i32⟩
  | 61 => ⟨S600000x1, .i32⟩
  | 62 => ⟨S600000x128, .f32⟩
  | 63 => ⟨S600000x128, .f32⟩
  | 64 => ⟨S600000x128, .f32⟩
  | 65 => ⟨S_, .f32⟩
  | 66 => ⟨S50000x128, .f32⟩
  | 67 => ⟨S600000x1, .i32⟩
  | 68 => ⟨S50000x128, .f32⟩
  | 69 => ⟨S600000x1, .f32⟩
  | 70 => ⟨S_, .i32⟩
  | 71 => ⟨S600000, .i32⟩
  | 72 => ⟨S600000, .i1⟩
  | 73 => ⟨S_, .i32⟩
  | 74 => ⟨S600000, .i32⟩
  | 75 => ⟨S600000, .i32⟩
  | 76 => ⟨S600000, .i32⟩
  | 77 => ⟨S600000x1, .i32⟩
  | 78 => ⟨S600000x128, .f32⟩
  | 79 => ⟨S600000x128, .f32⟩
  | 80 => ⟨S600000x128, .f32⟩
  | 81 => ⟨S_, .f32⟩
  | 82 => ⟨S50000x128, .f32⟩
  | 83 => ⟨S600000x1, .i32⟩
  | 84 => ⟨S50000x128, .f32⟩
  | 85 => ⟨S_, .f32⟩
  | 86 => ⟨S50000x128, .f32⟩
  | 87 => ⟨S50000x128, .f32⟩
  | 88 => ⟨S50000x128, .f32⟩
  | 89 => ⟨S600000x1, .f32⟩
  | 90 => ⟨S_, .i32⟩
  | 91 => ⟨S600000, .i32⟩
  | 92 => ⟨S600000, .i1⟩
  | 93 => ⟨S_, .i32⟩
  | 94 => ⟨S600000, .i32⟩
  | 95 => ⟨S600000, .i32⟩
  | 96 => ⟨S600000, .i32⟩
  | 97 => ⟨S600000x1, .i32⟩
  | 98 => ⟨S600000x128, .f32⟩
  | 99 => ⟨S600000x128, .f32⟩
  | 100 => ⟨S600000x128, .f32⟩
  | 101 => ⟨S_, .f32⟩
  | 102 => ⟨S50000x128, .f32⟩
  | 103 => ⟨S600000x1, .i32⟩
  | 104 => ⟨S50000x128, .f32⟩
  | 105 => ⟨S_, .f32⟩
  | 106 => ⟨S50000x128, .f32⟩
  | 107 => ⟨S50000x128, .f32⟩
  | 108 => ⟨S50000x128, .f32⟩
  | 109 => ⟨S50000x128, .f32⟩
  | 110 => ⟨S600000x1, .f32⟩
  | 111 => ⟨S_, .i32⟩
  | 112 => ⟨S600000, .i32⟩
  | 113 => ⟨S600000, .i1⟩
  | 114 => ⟨S_, .i32⟩
  | 115 => ⟨S600000, .i32⟩
  | 116 => ⟨S600000, .i32⟩
  | 117 => ⟨S600000, .i32⟩
  | 118 => ⟨S600000x1, .i32⟩
  | 119 => ⟨S600000x128, .f32⟩
  | 120 => ⟨S600000x128, .f32⟩
  | 121 => ⟨S600000x128, .f32⟩
  | 122 => ⟨S_, .f32⟩
  | 123 => ⟨S50000x128, .f32⟩
  | 124 => ⟨S600000x1, .i32⟩
  | 125 => ⟨S50000x128, .f32⟩
  | 126 => ⟨S600000x1, .f32⟩
  | 127 => ⟨S_, .i32⟩
  | _ => ⟨S50000x112, .f32⟩

abbrev hbmTy0_1 (i : Nat) : BufTy := match i % 128 with
  | 0 => ⟨S600000, .i32⟩
  | 1 => ⟨S600000, .i1⟩
  | 2 => ⟨S_, .i32⟩
  | 3 => ⟨S600000, .i32⟩
  | 4 => ⟨S600000, .i32⟩
  | 5 => ⟨S600000, .i32⟩
  | 6 => ⟨S600000x1, .i32⟩
  | 7 => ⟨S600000x128, .f32⟩
  | 8 => ⟨S600000x128, .f32⟩
  | 9 => ⟨S600000x128, .f32⟩
  | 10 => ⟨S_, .f32⟩
  | 11 => ⟨S50000x128, .f32⟩
  | 12 => ⟨S600000x1, .i32⟩
  | 13 => ⟨S50000x128, .f32⟩
  | 14 => ⟨S_, .f32⟩
  | 15 => ⟨S50000x128, .f32⟩
  | 16 => ⟨S50000x128, .f32⟩
  | 17 => ⟨S50000x128, .f32⟩
  | 18 => ⟨S600000x1, .f32⟩
  | 19 => ⟨S_, .i32⟩
  | 20 => ⟨S600000, .i32⟩
  | 21 => ⟨S600000, .i1⟩
  | 22 => ⟨S_, .i32⟩
  | 23 => ⟨S600000, .i32⟩
  | 24 => ⟨S600000, .i32⟩
  | 25 => ⟨S600000, .i32⟩
  | 26 => ⟨S600000x1, .i32⟩
  | 27 => ⟨S600000x128, .f32⟩
  | 28 => ⟨S600000x128, .f32⟩
  | 29 => ⟨S600000x128, .f32⟩
  | 30 => ⟨S_, .f32⟩
  | 31 => ⟨S50000x128, .f32⟩
  | 32 => ⟨S600000x1, .i32⟩
  | 33 => ⟨S50000x128, .f32⟩
  | 34 => ⟨S_, .f32⟩
  | 35 => ⟨S50000x128, .f32⟩
  | 36 => ⟨S50000x128, .f32⟩
  | 37 => ⟨S50000x128, .f32⟩
  | 38 => ⟨S50000x128, .f32⟩
  | 39 => ⟨S128x128, .f32⟩
  | 40 => ⟨S128, .f32⟩
  | 41 => ⟨S50000x128, .f32⟩
  | 42 => ⟨S50000x64, .f32⟩
  | 43 => ⟨S50000x64, .f32⟩
  | _ => ⟨S50000x112, .f32⟩

abbrev hbmTy (i : Nat) : BufTy := match i / 128 with
  | 0 => hbmTy0_0 i
  | 1 => hbmTy0_1 i
  | _ => ⟨S50000x112, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S4x128x128, .f32⟩
  | .local _ .vmem, ⟨9, _⟩ => ⟨S128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S4x128x128, .f32⟩
  | .local _ .vmem, ⟨21, _⟩ => ⟨S128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S128x128, .f32⟩
  | .local _ .vmem, ⟨27, _⟩ => ⟨S128, .f32⟩
  | .local _ .vmem, ⟨28, _⟩ => ⟨S2000x128, .f32⟩
  | .local _ .vmem, ⟨29, _⟩ => ⟨S2000x128, .f32⟩
  | _, _ => ⟨S50000x112, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_9 : Ref sig .tc := ⟨.hbm, 70, rfl⟩
abbrev main_v45 : Ref sig .tc := ⟨.hbm, 71, rfl⟩
abbrev main_v46 : Ref sig .tc := ⟨.hbm, 72, rfl⟩
abbrev main_c_10 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_11 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_12 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_13 : Ref sig .tc := ⟨.hbm, 90, rfl⟩
abbrev main_v61 : Ref sig .tc := ⟨.hbm, 91, rfl⟩
abbrev main_v62 : Ref sig .tc := ⟨.hbm, 92, rfl⟩
abbrev main_c_14 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_15 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_16 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_c_17 : Ref sig .tc := ⟨.hbm, 111, rfl⟩
abbrev main_v78 : Ref sig .tc := ⟨.hbm, 112, rfl⟩
abbrev main_v79 : Ref sig .tc := ⟨.hbm, 113, rfl⟩
abbrev main_c_18 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_19 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_c_20 : Ref sig .tc := ⟨.hbm, 127, rfl⟩
abbrev main_v91 : Ref sig .tc := ⟨.hbm, 128, rfl⟩
abbrev main_v92 : Ref sig .tc := ⟨.hbm, 129, rfl⟩
abbrev main_c_21 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_22 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_23 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_c_24 : Ref sig .tc := ⟨.hbm, 147, rfl⟩
abbrev main_v107 : Ref sig .tc := ⟨.hbm, 148, rfl⟩
abbrev main_v108 : Ref sig .tc := ⟨.hbm, 149, rfl⟩
abbrev main_c_25 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_cst_26 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_cst_27 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg3_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem6_0 : DmaSem sig := 22
abbrev cc1_sem6_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem3_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S4x128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S50000 : S_.BroadcastsInDim S50000 (![] : Fin 0 → Fin S50000.rank)
  bcast_S600000_S600000x1_0 : S600000.BroadcastsInDim S600000x1 (![0] : Fin 1 → Fin S600000x1.rank)
  bcast_S_S600000 : S_.BroadcastsInDim S600000 (![] : Fin 0 → Fin S600000.rank)
  concatenates_S50000x112_S50000x16_S50000x128_d1 : Shape.Concatenates [S50000x112, S50000x16] S50000x128 1
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S4x128x128_S1x128x128_0_0_0 : ∀ a, (![0, 0, 0] : Fin 3 → Nat) a + S1x128x128.size a ≤ S4x128x128.size a
  h_S1x128x128 : 0 < S1x128x128.numel
  shapeCasts_S1x128x128_S128x128 : S1x128x128.ShapeCasts S128x128
  inb_S4x128x128_S1x128x128_1_0_0 : ∀ a, (![1, 0, 0] : Fin 3 → Nat) a + S1x128x128.size a ≤ S4x128x128.size a
  inb_S4x128x128_S1x128x128_2_0_0 : ∀ a, (![2, 0, 0] : Fin 3 → Nat) a + S1x128x128.size a ≤ S4x128x128.size a
  inb_S4x128x128_S1x128x128_3_0_0 : ∀ a, (![3, 0, 0] : Fin 3 → Nat) a + S1x128x128.size a ≤ S4x128x128.size a
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  concatenates_S128x64_S128x64_S128x128_d1 : Shape.Concatenates [S128x64, S128x64] S128x128 1
  concatenates_S64_S64_S128_d0 : Shape.Concatenates [S64, S64] S128 0
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128_S128 : S128.ShapeCasts S128
  slices_S50000x128_S50000x64_0_0 : S50000x128.Slices ![0, 0] S50000x64
  slices_S50000x128_S50000x64_0_64 : S50000x128.Slices ![0, 64] S50000x64
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x128x128.size a ≤ S4x128x128.size a
  hwx0_4 : ∀ i : grid0.Coords, EltTy.bits .f32 = 32 ∨ (Rect.block (s := S4x128x128) S4x128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4x128x128.size a ≤ S4x128x128.size a
  hwx1_4 : ∀ i : grid1.Coords, EltTy.bits .f32 = 32 ∨ (Rect.block (s := S4x128x128) S4x128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v30) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v59) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v75) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4x128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v76) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v76) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v89) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v105) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v121) S2000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S4x128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v122) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v122) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v123) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v124) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v125) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x112 : Shape := ⟨2, ![50000, 112]⟩
abbrev S2x600000 : Shape := ⟨2, ![2, 600000]⟩
abbrev S50000x16 : Shape := ⟨2, ![50000, 16]⟩
abbrev S600000 : Shape := ⟨1, ![600000]⟩
abbrev S4x128x128 : Shape := ⟨3, ![4, 128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S_ : Shape := ⟨0, ![]⟩
abbrev S50000 : Shape := ⟨1, ![50000]⟩
abbrev S600000x1 : Shape := ⟨2, ![600000, 1]⟩
abbrev S50000x128 : Shape := ⟨2, ![50000, 128]⟩
abbrev S1x128x128 : Shape := ⟨3, ![1, 128, 128]⟩
abbrev S128x128 : Shape := ⟨2, ![128, 128]⟩
abbrev S600000x128 : Shape := ⟨2, ![600000, 128]⟩
abbrev S1x128 : Shape := ⟨2, ![1, 128]⟩
abbrev S50000x64 : Shape := ⟨2, ![50000, 64]⟩
abbrev S1x64 : Shape := ⟨2, ![1, 64]⟩

abbrev nBuf : Space → Nat
  | .hbm => 215
  | .vmem => 0
  | .smem => 0
  | _ => 0

abbrev hbmTy0_0 (i : Nat) : BufTy := match i % 128 with
  | 0 => ⟨S50000x112, .f32⟩
  | 1 => ⟨S2x600000, .i32⟩
  | 2 => ⟨S50000x16, .f32⟩
  | 3 => ⟨S600000, .f32⟩
  | 4 => ⟨S4x128x128, .f32⟩
  | 5 => ⟨S128, .f32⟩
  | 6 => ⟨S4x128x128, .f32⟩
  | 7 => ⟨S128, .f32⟩
  | 8 => ⟨S128x64, .f32⟩
  | 9 => ⟨S64, .f32⟩
  | 10 => ⟨S128x64, .f32⟩
  | 11 => ⟨S64, .f32⟩
  | 12 => ⟨S1x600000, .i32⟩
  | 13 => ⟨S600000, .i32⟩
  | 14 => ⟨S1x600000, .i32⟩
  | 15 => ⟨S600000, .i32⟩
  | 16 => ⟨S_, .f32⟩
  | 17 => ⟨S50000, .f32⟩
  | 18 => ⟨S600000x1, .i32⟩
  | 19 => ⟨S50000, .f32⟩
  | 20 => ⟨S_, .f32⟩
  | 21 => ⟨S50000, .f32⟩
  | 22 => ⟨S50000, .i1⟩
  | 23 => ⟨S_, .f32⟩
  | 24 => ⟨S50000, .f32⟩
  | 25 => ⟨S50000, .f32⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S600000, .i32⟩
  | 33 => ⟨S600000, .i1⟩
  | 34 => ⟨S_, .i32⟩
  | 35 => ⟨S600000, .i32⟩
  | 36 => ⟨S600000, .i32⟩
  | 37 => ⟨S600000, .i32⟩
  | 38 => ⟨S600000x1, .i32⟩
  | 39 => ⟨S600000, .f32⟩
  | 40 => ⟨S600000, .f32⟩
  | 41 => ⟨S600000, .f32⟩
  | 42 => ⟨S_, .i32⟩
  | 43 => ⟨S600000, .i32⟩
  | 44 => ⟨S600000, .i1⟩
  | 45 => ⟨S_, .i32⟩
  | 46 => ⟨S600000, .i32⟩
  | 47 => ⟨S600000, .i32⟩
  | 48 => ⟨S600000, .i32⟩
  | 49 => ⟨S600000x1, .i32⟩
  | 50 => ⟨S600000, .f32⟩
  | 51 => ⟨S600000, .f32⟩
  | 52 => ⟨S50000x128, .f32⟩
  | 53 => ⟨S1x128x128, .f32⟩
  | 54 => ⟨S128x128, .f32⟩
  | 55 => ⟨S50000x128, .f32⟩
  | 56 => ⟨S600000x1, .f32⟩
  | 57 => ⟨S_, .i32⟩
  | 58 => ⟨S600000, .i32⟩
  | 59 => ⟨S600000, .i1⟩
  | 60 => ⟨S_, .i32⟩
  | 61 => ⟨S600000, .i32⟩
  | 62 => ⟨S600000, .i32⟩
  | 63 => ⟨S600000, .i32⟩
  | 64 => ⟨S600000x1, .i32⟩
  | 65 => ⟨S600000x128, .f32⟩
  | 66 => ⟨S600000x128, .f32⟩
  | 67 => ⟨S600000x128, .f32⟩
  | 68 => ⟨S_, .f32⟩
  | 69 => ⟨S50000x128, .f32⟩
  | 70 => ⟨S600000x1, .i32⟩
  | 71 => ⟨S50000x128, .f32⟩
  | 72 => ⟨S1x128x128, .f32⟩
  | 73 => ⟨S128x128, .f32⟩
  | 74 => ⟨S50000x128, .f32⟩
  | 75 => ⟨S50000x128, .f32⟩
  | 76 => ⟨S600000x1, .f32⟩
  | 77 => ⟨S_, .i32⟩
  | 78 => ⟨S600000, .i32⟩
  | 79 => ⟨S600000, .i1⟩
  | 80 => ⟨S_, .i32⟩
  | 81 => ⟨S600000, .i32⟩
  | 82 => ⟨S600000, .i32⟩
  | 83 => ⟨S600000, .i32⟩
  | 84 => ⟨S600000x1, .i32⟩
  | 85 => ⟨S600000x128, .f32⟩
  | 86 => ⟨S600000x128, .f32⟩
  | 87 => ⟨S600000x128, .f32⟩
  | 88 => ⟨S_, .f32⟩
  | 89 => ⟨S50000x128, .f32⟩
  | 90 => ⟨S600000x1, .i32⟩
  | 91 => ⟨S50000x128, .f32⟩
  | 92 => ⟨S_, .f32⟩
  | 93 => ⟨S50000x128, .f32⟩
  | 94 => ⟨S50000x128, .f32⟩
  | 95 => ⟨S50000x128, .f32⟩
  | 96 => ⟨S1x128x128, .f32⟩
  | 97 => ⟨S128x128, .f32⟩
  | 98 => ⟨S50000x128, .f32⟩
  | 99 => ⟨S50000x128, .f32⟩
  | 100 => ⟨S600000x1, .f32⟩
  | 101 => ⟨S_, .i32⟩
  | 102 => ⟨S600000, .i32⟩
  | 103 => ⟨S600000, .i1⟩
  | 104 => ⟨S_, .i32⟩
  | 105 => ⟨S600000, .i32⟩
  | 106 => ⟨S600000, .i32⟩
  | 107 => ⟨S600000, .i32⟩
  | 108 => ⟨S600000x1, .i32⟩
  | 109 => ⟨S600000x128, .f32⟩
  | 110 => ⟨S600000x128, .f32⟩
  | 111 => ⟨S600000x128, .f32⟩
  | 112 => ⟨S_, .f32⟩
  | 113 => ⟨S50000x128, .f32⟩
  | 114 => ⟨S600000x1, .i32⟩
  | 115 => ⟨S50000x128, .f32⟩
  | 116 => ⟨S_, .f32⟩
  | 117 => ⟨S50000x128, .f32⟩
  | 118 => ⟨S50000x128, .f32⟩
  | 119 => ⟨S50000x128, .f32⟩
  | 120 => ⟨S1x128x128, .f32⟩
  | 121 => ⟨S128x128, .f32⟩
  | 122 => ⟨S50000x128, .f32⟩
  | 123 => ⟨S50000x128, .f32⟩
  | 124 => ⟨S1x128, .f32⟩
  | 125 => ⟨S50000x128, .f32⟩
  | 126 => ⟨S50000x128, .f32⟩
  | 127 => ⟨S_, .f32⟩
  | _ => ⟨S50000x112, .f32⟩

abbrev hbmTy0_1 (i : Nat) : BufTy := match i % 128 with
  | 0 => ⟨S50000x128, .f32⟩
  | 1 => ⟨S50000x128, .f32⟩
  | 2 => ⟨S1x128x128, .f32⟩
  | 3 => ⟨S128x128, .f32⟩
  | 4 => ⟨S50000x128, .f32⟩
  | 5 => ⟨S600000x1, .f32⟩
  | 6 => ⟨S_, .i32⟩
  | 7 => ⟨S600000, .i32⟩
  | 8 => ⟨S600000, .i1⟩
  | 9 => ⟨S_, .i32⟩
  | 10 => ⟨S600000, .i32⟩
  | 11 => ⟨S600000, .i32⟩
  | 12 => ⟨S600000, .i32⟩
  | 13 => ⟨S600000x1, .i32⟩
  | 14 => ⟨S600000x128, .f32⟩
  | 15 => ⟨S600000x128, .f32⟩
  | 16 => ⟨S600000x128, .f32⟩
  | 17 => ⟨S_, .f32⟩
  | 18 => ⟨S50000x128, .f32⟩
  | 19 => ⟨S600000x1, .i32⟩
  | 20 => ⟨S50000x128, .f32⟩
  | 21 => ⟨S1x128x128, .f32⟩
  | 22 => ⟨S128x128, .f32⟩
  | 23 => ⟨S50000x128, .f32⟩
  | 24 => ⟨S50000x128, .f32⟩
  | 25 => ⟨S600000x1, .f32⟩
  | 26 => ⟨S_, .i32⟩
  | 27 => ⟨S600000, .i32⟩
  | 28 => ⟨S600000, .i1⟩
  | 29 => ⟨S_, .i32⟩
  | 30 => ⟨S600000, .i32⟩
  | 31 => ⟨S600000, .i32⟩
  | 32 => ⟨S600000, .i32⟩
  | 33 => ⟨S600000x1, .i32⟩
  | 34 => ⟨S600000x128, .f32⟩
  | 35 => ⟨S600000x128, .f32⟩
  | 36 => ⟨S600000x128, .f32⟩
  | 37 => ⟨S_, .f32⟩
  | 38 => ⟨S50000x128, .f32⟩
  | 39 => ⟨S600000x1, .i32⟩
  | 40 => ⟨S50000x128, .f32⟩
  | 41 => ⟨S_, .f32⟩
  | 42 => ⟨S50000x128, .f32⟩
  | 43 => ⟨S50000x128, .f32⟩
  | 44 => ⟨S50000x128, .f32⟩
  | 45 => ⟨S1x128x128, .f32⟩
  | 46 => ⟨S128x128, .f32⟩
  | 47 => ⟨S50000x128, .f32⟩
  | 48 => ⟨S50000x128, .f32⟩
  | 49 => ⟨S600000x1, .f32⟩
  | 50 => ⟨S_, .i32⟩
  | 51 => ⟨S600000, .i32⟩
  | 52 => ⟨S600000, .i1⟩
  | 53 => ⟨S_, .i32⟩
  | 54 => ⟨S600000, .i32⟩
  | 55 => ⟨S600000, .i32⟩
  | 56 => ⟨S600000, .i32⟩
  | 57 => ⟨S600000x1, .i32⟩
  | 58 => ⟨S600000x128, .f32⟩
  | 59 => ⟨S600000x128, .f32⟩
  | 60 => ⟨S600000x128, .f32⟩
  | 61 => ⟨S_, .f32⟩
  | 62 => ⟨S50000x128, .f32⟩
  | 63 => ⟨S600000x1, .i32⟩
  | 64 => ⟨S50000x128, .f32⟩
  | 65 => ⟨S_, .f32⟩
  | 66 => ⟨S50000x128, .f32⟩
  | 67 => ⟨S50000x128, .f32⟩
  | 68 => ⟨S50000x128, .f32⟩
  | 69 => ⟨S1x128x128, .f32⟩
  | 70 => ⟨S128x128, .f32⟩
  | 71 => ⟨S50000x128, .f32⟩
  | 72 => ⟨S50000x128, .f32⟩
  | 73 => ⟨S1x128, .f32⟩
  | 74 => ⟨S50000x128, .f32⟩
  | 75 => ⟨S50000x128, .f32⟩
  | 76 => ⟨S_, .f32⟩
  | 77 => ⟨S50000x128, .f32⟩
  | 78 => ⟨S50000x128, .f32⟩
  | 79 => ⟨S50000x64, .f32⟩
  | 80 => ⟨S1x64, .f32⟩
  | 81 => ⟨S50000x64, .f32⟩
  | 82 => ⟨S50000x64, .f32⟩
  | 83 => ⟨S50000x64, .f32⟩
  | 84 => ⟨S1x64, .f32⟩
  | 85 => ⟨S50000x64, .f32⟩
  | 86 => ⟨S50000x64, .f32⟩
  | _ => ⟨S50000x112, .f32⟩

abbrev hbmTy (i : Nat) : BufTy := match i / 128 with
  | 0 => hbmTy0_0 i
  | 1 => hbmTy0_1 i
  | _ => ⟨S50000x112, .f32⟩

abbrev bufTy : (tb : Table) → Fin (tcTables nBuf tb) → BufTy
  | .hbm, ⟨i, _⟩ => hbmTy i
  | _, _ => ⟨S50000x112, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_6 : Ref sig .tc := ⟨.hbm, 57, rfl⟩
abbrev main_v35 : Ref sig .tc := ⟨.hbm, 58, rfl⟩
abbrev main_v36 : Ref sig .tc := ⟨.hbm, 59, rfl⟩
abbrev main_c_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_9 : Ref sig .tc := ⟨.hbm, 77, rfl⟩
abbrev main_v52 : Ref sig .tc := ⟨.hbm, 78, rfl⟩
abbrev main_v53 : Ref sig .tc := ⟨.hbm, 79, rfl⟩
abbrev main_c_10 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_11 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_12 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_13 : Ref sig .tc := ⟨.hbm, 101, rfl⟩
abbrev main_v72 : Ref sig .tc := ⟨.hbm, 102, rfl⟩
abbrev main_v73 : Ref sig .tc := ⟨.hbm, 103, rfl⟩
abbrev main_c_14 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_15 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_16 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_call1_cst : Ref sig .tc := ⟨.hbm, 127, rfl⟩
abbrev main_call1_v0 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_c_17 : Ref sig .tc := ⟨.hbm, 134, rfl⟩
abbrev main_v99 : Ref sig .tc := ⟨.hbm, 135, rfl⟩
abbrev main_v100 : Ref sig .tc := ⟨.hbm, 136, rfl⟩
abbrev main_c_18 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_cst_19 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_c_20 : Ref sig .tc := ⟨.hbm, 154, rfl⟩
abbrev main_v116 : Ref sig .tc := ⟨.hbm, 155, rfl⟩
abbrev main_v117 : Ref sig .tc := ⟨.hbm, 156, rfl⟩
abbrev main_c_21 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_cst_22 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_cst_23 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_c_24 : Ref sig .tc := ⟨.hbm, 178, rfl⟩
abbrev main_v136 : Ref sig .tc := ⟨.hbm, 179, rfl⟩
abbrev main_v137 : Ref sig .tc := ⟨.hbm, 180, rfl⟩
abbrev main_c_25 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_cst_26 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_cst_27 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_call2_cst : Ref sig .tc := ⟨.hbm, 204, rfl⟩
abbrev main_call2_v0 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S50000 : S_.BroadcastsInDim S50000 (![] : Fin 0 → Fin S50000.rank)
  bcast_S600000_S600000x1_0 : S600000.BroadcastsInDim S600000x1 (![0] : Fin 1 → Fin S600000x1.rank)
  bcast_S_S600000 : S_.BroadcastsInDim S600000 (![] : Fin 0 → Fin S600000.rank)
  concatenates_S50000x112_S50000x16_S50000x128_d1 : Shape.Concatenates [S50000x112, S50000x16] S50000x128 1
  slices_S4x128x128_S1x128x128_0_0_0 : S4x128x128.Slices ![0, 0, 0] S1x128x128
  shapeCasts_S1x128x128_S128x128 : S1x128x128.ShapeCasts S128x128
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  slices_S4x128x128_S1x128x128_1_0_0 : S4x128x128.Slices ![1, 0, 0] S1x128x128
  slices_S4x128x128_S1x128x128_2_0_0 : S4x128x128.Slices ![2, 0, 0] S1x128x128
  slices_S4x128x128_S1x128x128_3_0_0 : S4x128x128.Slices ![3, 0, 0] S1x128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x64_S50000x64_1_0_0_1_n_n_wf : DotDims.WF S50000x128 S128x64 S50000x64 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KRun.lean ====
/-
  The idealized kernel program's run with its two result arrays named.

  @main is nine segments: three stretches of host operations, a dense-layer region, a stretch, a second dense-layer
  region, a stretch, the head region, and the two final slices. The contents of every unscoped buffer at each segment
  boundary are a fold from the launch memory (W0 … W9). Every weakly fair execution terminates, nothing faults, and at
  the end every unscoped buffer holds what the last boundary W9 says: in particular the two results, and the twelve
  arguments, which nothing writes.
-/
import proofs.«137457_j82411832476341_1_alg».proof.Proof.Gen.KernelIdeal.Frame

set_option maxRecDepth 16384

noncomputable section

namespace Cert.KernelIdeal.Results

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: both results at the last boundary's contents, every argument as launched. -/
theorem run_results : θ_run defs (onTc (τ := τ) (main (F := F))) ⟨m, fun _ => 0, ρ⟩ (fun r => ∀ c : Dev nD,
      r.2.mem ((c.tc : Thread nD τ).loc main_v126) = W9 m ρ c (Proc.devRef .tc main_v126)
      ∧ r.2.mem ((c.tc : Thread nD τ).loc main_v127) = W9 m ρ c (Proc.devRef .tc main_v127)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v126 (by decide)),
       h c _ (mem_uc main_v127 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c)⟩)

end Cert.KernelIdeal.Results

end
-- ==== Proof.LibPlainDot.lean ====
/-
  General facts, at the extended reals, about a two-dimensional matrix product whose dimension numbers contract
  the left operand's second axis with the right operand's first (no batch axis).

  * A matrix unit's product of operands first cast to a narrower float format, accumulated into the zero splat,
    IS the host's dot_general of the uncast operands under the same dimension numbers: at each output index both
    are the sum over the contraction index of the products of the operands' entries, the casts being the identity
    and the zero accumulator adding nothing.
  * That sum, indexed by the dimension numbers' own contraction index, is the textbook sum over k < K of
    l(r, k) · r(k, c): the contraction index of a one-axis contraction is its one coordinate, and the operand
    indices at (r, c) and k are (r, k) and (k, c) — the four coordinate facts are hypotheses, discharged per record
    from the dimension numbers.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

/-- Into the zero splat, after narrowing casts of both operands, the matrix unit's product is the host's
    dot_general of the operands themselves (same dimension numbers, any precision word): index by index both are
    the contraction's sum of products. -/
theorem matmul_truncf_zero_eq_dotGeneral {sl sr so : Shape} {φ₁ φ₂ ψ₁ ψ₂ : FTy} (d : DotDims sl sr so)
    (prec : Option ContractPrecision) (l : FVec Ideal sl φ₁) (r : FVec Ideal sr φ₂)
    (h₁ : ψ₁.bits < φ₁.bits) (h₂ : ψ₂.bits < φ₂.bits) :
    matmul d prec (truncf ψ₁ l h₁) (truncf ψ₂ r h₂) (constant so .f32 0x00000000#32) = Host.dotGeneral d prec l r :=
  funext fun j =>
    ((Ideal.matmul_constant_zero_apply d prec (truncf ψ₁ l h₁) (truncf ψ₂ r h₂) j).trans
      (Finset.sum_congr rfl fun _ _ => rfl)).trans (Ideal.dotGeneral_apply d prec .single l r j).symm

/-- The contraction's sum at output index (r, c), re-indexed by the contracted coordinate k < K:
    the sum of l(r, k) · r(k, c). -/
theorem contraction_sum {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (a : Fin M) (c : Fin N) :
    ∑ q : d.contr.Idx, l (d.lhsIdx (ix2 a c) q) * r (d.rhsIdx (ix2 a c) q) = ∑ k : Fin K, l (ix2 a k) * r (ix2 k c) := by
  rw [← Equiv.sum_comp (contrEquiv1 d K hr hs).symm]
  refine Finset.sum_congr rfl fun k _ => ?_
  have hk := contrEquiv1_symm_val d K hr hs k
  have el : d.lhsIdx (ix2 a c) ((contrEquiv1 d K hr hs).symm k) = ix2 a k := funext fun x => Fin.ext (by
    match x with
    | ⟨0, _⟩ => exact hl0 _ _
    | ⟨1, _⟩ => exact (hl1 _ _).trans hk)
  have er : d.rhsIdx (ix2 a c) ((contrEquiv1 d K hr hs).symm k) = ix2 k c := funext fun x => Fin.ext (by
    match x with
    | ⟨0, _⟩ => exact (hr0 _ _).trans hk
    | ⟨1, _⟩ => exact hr1 _ _)
  rw [el, er]

/-- The host's dot_general at output index (r, c): the sum over k < K of l(r, k) · r(k, c). -/
theorem dotGeneral_apply_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (a : Fin M) (c : Fin N) :
    Host.dotGeneral d prec l r (ix2 a c) = ∑ k : Fin K, l (ix2 a k) * r (ix2 k c) :=
  (Ideal.dotGeneral_apply d prec .single l r (ix2 a c)).trans (contraction_sum d hr hs hl0 hl1 hr0 hr1 l r a c)

/-- A sum over k < K₁ + K₂ splits at K₁ (any commutative monoid: no finiteness is asked of the terms). -/
theorem sum_split {A : Type*} [AddCommMonoid A] (K₁ K₂ : Nat) (f : Fin (K₁ + K₂) → A) :
    ∑ k : Fin (K₁ + K₂), f k = ∑ k : Fin K₁, f (Fin.castAdd K₂ k) + ∑ k : Fin K₂, f (Fin.natAdd K₁ k) :=
  Fin.sum_univ_add f

end Cert.Lib.PlainDot

end
-- ==== Proof.LibDenseLayer.lean ====
/-
  A dense layer at the extended reals, read one block of rows at a time.

  A matrix of M rows is cut into blocks of Mb consecutive rows. Every operation of a dense layer — a rows-by-columns
  product with a fixed right factor, an entrywise sum or maximum, the addition of one bias row to every row, a
  constant matrix — acts on each row by itself, so what it makes of a block of rows is the same block of rows of
  what it makes of the whole matrix. `RowBlk off xb X` says that `xb` is the block of `X` that starts at row
  `off`; the lemmas below carry that relation through each operation. No finiteness is asked of any entry: the
  two sides are the same sums of the same products.
-/
import Idealize.ShloMosaic.PureOps.Ideal.Laws
import Idealize.ShloMosaic.Lib.ValueIdx
import Idealize.ShloMosaic.Lib.Pipeline.Value
import proofs.«137457_j82411832476341_1_alg».proof.Proof.LibPlainDot

noncomputable section

open scoped BigOperators

namespace Cert.Lib.DenseLayer

open Idealize.ShloMosaic Idealize.ShloMosaic.ValueIdx Cert.Lib.PlainDot

/-- A rank-2 record that contracts the left operand's second axis with the right operand's first and has no
    batch axis: the six facts that read it as the textbook product. -/
structure Plain {M K N : Nat} (d : DotDims ⟨2, ![M, K]⟩ ⟨2, ![K, N]⟩ ⟨2, ![M, N]⟩) : Prop where
  rank : d.contr.rank = 1
  size : d.contr.size ⟨0, by omega⟩ = K
  l0 : ∀ (i : (⟨2, ![M, N]⟩ : Shape).Idx) (q : d.contr.Idx), (d.lhsIdx i q 0).val = (i 0).val
  l1 : ∀ (i : (⟨2, ![M, N]⟩ : Shape).Idx) (q : d.contr.Idx), (d.lhsIdx i q 1).val = (q ⟨0, by omega⟩).val
  r0 : ∀ (i : (⟨2, ![M, N]⟩ : Shape).Idx) (q : d.contr.Idx), (d.rhsIdx i q 0).val = (q ⟨0, by omega⟩).val
  r1 : ∀ (i : (⟨2, ![M, N]⟩ : Shape).Idx) (q : d.contr.Idx), (d.rhsIdx i q 1).val = (i 1).val

/-- The product at entry (r, c) is the sum over k of l(r, k) · w(k, c). -/
theorem Plain.dot_apply {M K N : Nat} {d : DotDims ⟨2, ![M, K]⟩ ⟨2, ![K, N]⟩ ⟨2, ![M, N]⟩} (hd : Plain d)
    (l : FVec Ideal ⟨2, ![M, K]⟩ .f32) (w : FVec Ideal ⟨2, ![K, N]⟩ .f32) (r : Fin M) (c : Fin N) :
    Host.dotGeneral d none l w (ix2 r c) = ∑ k : Fin K, l (ix2 r k) * w (ix2 k c) :=
  dotGeneral_apply_ix2 d hd.rank hd.size hd.l0 hd.l1 hd.r0 hd.r1 none l w r c

/-- `xb` is the block of `Mb` rows of `X` that starts at row `off`. -/
def RowBlk {Mb M K : Nat} (off : Nat) (xb : (⟨2, ![Mb, K]⟩ : Shape).Idx → EReal) (X : (⟨2, ![M, K]⟩ : Shape).Idx → EReal) : Prop :=
  ∀ (r : Fin Mb) (h : off + r.val < M) (k : Fin K), xb (ix2 r k) = X (ix2 ⟨off + r.val, h⟩ k)

/-- A block of rows times a matrix is the block of rows of the product. -/
theorem RowBlk.dot {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) :
    RowBlk off (Host.dotGeneral db none xb w) (Host.dotGeneral dh none X w) := fun r hr c => by
  rw [hb.dot_apply, hh.dot_apply]
  exact Finset.sum_congr rfl fun k _ => congrArg (· * w (ix2 k c)) (h r hr k)

/-- The matrix unit's product of narrowed operands into the zero matrix, on a block of rows. -/
theorem RowBlk.matmul {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) (h₁ : FTy.bf16.bits < FTy.f32.bits) (h₂ : FTy.bf16.bits < FTy.f32.bits) :
    RowBlk off (matmul db none (truncf .bf16 xb h₁) (truncf .bf16 w h₂) (constant ⟨2, ![Mb, N]⟩ .f32 0x00000000#32))
      (Host.dotGeneral dh none X w) := by
  rw [matmul_truncf_zero_eq_dotGeneral]
  exact h.dot hb hh w

/-- Entrywise sums of blocks of rows. -/
theorem RowBlk.add {Mb M K : Nat} {off : Nat} {a b : FVec Ideal ⟨2, ![Mb, K]⟩ .f32} {A B : FVec Ideal ⟨2, ![M, K]⟩ .f32}
    (ha : RowBlk off a A) (hb : RowBlk off b B) : RowBlk off (addf a b) (addf A B) := fun r hr k => by
  rw [addf_apply, addf_apply, ha r hr k, hb r hr k]

/-- Entrywise maxima of blocks of rows. -/
theorem RowBlk.max {Mb M K : Nat} {off : Nat} {a b : FVec Ideal ⟨2, ![Mb, K]⟩ .f32} {A B : FVec Ideal ⟨2, ![M, K]⟩ .f32}
    (ha : RowBlk off a A) (hb : RowBlk off b B) : RowBlk off (maximumf a b) (maximumf A B) := fun r hr k => by
  rw [maximumf_apply, maximumf_apply, ha r hr k, hb r hr k]

/-- Two constant matrices of one value. -/
theorem RowBlk.const {Mb M K : Nat} {off : Nat} {z : (⟨2, ![Mb, K]⟩ : Shape).Idx → EReal} {Z : (⟨2, ![M, K]⟩ : Shape).Idx → EReal}
    (v : EReal) (hz : ∀ i, z i = v) (hZ : ∀ i, Z i = v) : RowBlk off z Z := fun r hr k => (hz _).trans (hZ _).symm

/-- One bias row added to every row: inside the body a broadcast of the row to the block, on the host a
    broadcast along the rows to the whole matrix. -/
theorem RowBlk.bias {Mb M N : Nat} {off : Nat} (b : (⟨2, ![1, N]⟩ : Shape).Idx → EReal)
    (hb : (⟨2, ![1, N]⟩ : Shape).Broadcasts ⟨2, ![Mb, N]⟩)
    (hB : (⟨2, ![1, N]⟩ : Shape).BroadcastsInDim ⟨2, ![M, N]⟩ ![0, 1]) :
    RowBlk off (broadcastTo ⟨2, ![Mb, N]⟩ b hb) (broadcastInDim ⟨2, ![M, N]⟩ ![0, 1] hB b) := fun r hr c => by
  have hc : N = 1 → c.val = 0 := fun e => by have := c.isLt; omega
  rw [broadcastTo_apply b hb (ix2 r c) (ix2 0 c) (fun a => by
        match a with
        | ⟨0, _⟩ => exact (if_pos rfl).symm
        | ⟨1, _⟩ =>
          show c.val = if N = 1 then 0 else c.val
          split
          · exact hc ‹_›
          · rfl),
      broadcastInDim_apply ![0, 1] hB b (ix2 ⟨off + r.val, hr⟩ c) (ix2 0 c) (fun a => by
        match a with
        | ⟨0, _⟩ => exact (if_pos rfl).symm
        | ⟨1, _⟩ =>
          show c.val = if N = 1 then 0 else c.val
          split
          · exact hc ‹_›
          · rfl)]

/-- A block that is the whole matrix (one block, starting at row 0). -/
theorem RowBlk.whole {M K : Nat} (X : (⟨2, ![M, K]⟩ : Shape).Idx → EReal) : RowBlk 0 X X := fun r hr k => by
  have : (⟨0 + r.val, hr⟩ : Fin M) = r := Fin.ext (Nat.zero_add _)
  rw [this]

/-- A vector of n entries made a 1×n row — by a reshape, or by a broadcast along a new unit axis — is one and the
    same row. -/
theorem addUnit_eq_bcast {α : Type} {n : Nat} (hn : n ≠ 1) (b : (⟨1, ![n]⟩ : Shape).Idx → α)
    (hs : (⟨1, ![n]⟩ : Shape).ShapeCasts ⟨2, ![1, n]⟩) (hb : (⟨1, ![n]⟩ : Shape).BroadcastsInDim ⟨2, ![1, n]⟩ ![1]) :
    shapeCast ⟨2, ![1, n]⟩ b hs = broadcastInDim ⟨2, ![1, n]⟩ ![1] hb b := funext fun j =>
  (shapeCast_addUnit_apply ![n] b hs j).trans
    (broadcastInDim_apply ![1] hb b j (fun a => j a.succ) (fun a => by
      match a with
      | ⟨0, _⟩ => exact (if_neg hn).symm)).symm

end Cert.Lib.DenseLayer

end
-- ==== Proof.LibPlainRecord.lean ====
/-
  A rank-2 product record whose dimension numbers are the plain ones — the left operand's second axis contracted with the
  right operand's first, no batch axis, the left rows then the right columns kept — reads as the textbook product:
  its contraction has one axis of extent K, the left operand is read at (row, k) and the right at (k, column).
-/
import proofs.«137457_j82411832476341_1_alg».proof.Proof.LibDenseLayer

noncomputable section

namespace Cert.Lib.DenseLayer

open Idealize.ShloMosaic Idealize.ShloMosaic.ValueIdx

/-- The six coordinate facts from the six lists of the dimension numbers. -/
theorem Plain.of_fields {M K N : Nat} (d : DotDims ⟨2, ![M, K]⟩ ⟨2, ![K, N]⟩ ⟨2, ![M, N]⟩)
    (h1 : d.lhsContracting = [1]) (h2 : d.rhsContracting = [0]) (h3 : d.lhsNonContracting = [0]) (h4 : d.rhsNonContracting = [1])
    (h5 : d.lhsBatch = []) (h6 : d.rhsBatch = []) : Plain d where
  rank := by rw [d.rank_contr, h1]; rfl
  size := by
    have : d.contr = Shape.ofList ([1].map (⟨2, ![M, K]⟩ : Shape).size) := by unfold DotDims.contr; rw [h1]
    rw [show d.contr.size ⟨0, by rw [d.rank_contr, h1]; exact Nat.one_pos⟩ = K from by
      unfold DotDims.contr; simp [h1, Shape.ofList]]
  l0 := fun i q => by
    have key : ∀ (n : Nat) (hn : n < 2), n = 0 → (i ⟨n, hn⟩).val = (i 0).val := fun n hn h0 => by subst h0; rfl
    unfold DotDims.lhsIdx
    simp only [h5, h3, List.not_mem_nil, dite_false, List.mem_singleton, dite_true, Fin.val_cast]
    exact key _ _ (by simp [h5, h3])
  l1 := fun i q => d.lhsIdx_val_of_single h1 i q
  r0 := fun i q => d.rhsIdx_val_of_single h2 i q
  r1 := fun i q => by
    have key : ∀ (n : Nat) (hn : n < 2), n = 1 → (i ⟨n, hn⟩).val = (i 1).val := fun n hn h0 => by subst h0; rfl
    unfold DotDims.rhsIdx
    simp only [h6, h4, List.not_mem_nil, dite_false, List.mem_singleton, dite_true, Fin.val_cast]
    exact key _ _ (by simp [h5, h3, h4])

/-- Entrywise products of blocks of rows. -/
theorem RowBlk.mul {Mb M K : Nat} {off : Nat} {a b : FVec Ideal ⟨2, ![Mb, K]⟩ .f32} {A B : FVec Ideal ⟨2, ![M, K]⟩ .f32}
    (ha : RowBlk off a A) (hb : RowBlk off b B) : RowBlk off (mulf a b) (mulf A B) := fun r hr k => by
  rw [mulf_apply, mulf_apply, ha r hr k, hb r hr k]

/-- A reshape to the same shape changes nothing. -/
theorem RowBlk.castSelf {Mb M K : Nat} {off : Nat} {a : (⟨2, ![Mb, K]⟩ : Shape).Idx → EReal} {A : (⟨2, ![M, K]⟩ : Shape).Idx → EReal}
    (ha : RowBlk off a A) (h : (⟨2, ![Mb, K]⟩ : Shape).ShapeCasts ⟨2, ![Mb, K]⟩) : RowBlk off (shapeCast ⟨2, ![Mb, K]⟩ a h) A := by
  rw [shapeCast_self]; exact ha

/-- An entrywise function of a block of rows. -/
theorem RowBlk.map {Mb M K : Nat} {off : Nat} {a : (⟨2, ![Mb, K]⟩ : Shape).Idx → EReal} {A : (⟨2, ![M, K]⟩ : Shape).Idx → EReal}
    (ha : RowBlk off a A) (f : EReal → EReal) : RowBlk off (fun i => f (a i)) (fun i => f (A i)) := fun r hr k => by
  show f (a (ix2 r k)) = f (A (ix2 ⟨off + r.val, hr⟩ k)); rw [ha r hr k]

end Cert.Lib.DenseLayer

end
-- ==== Proof.LibBlockFormats.lean ====
/-
  Blocks of rows of a dense layer at the extended reals, for operands held in any float format.

  At the extended reals a float of every format is an extended real and a change of format is the identity. So the
  relation "xb is the block of rows of X that starts at row off" passes through a narrowing cast unchanged, and
  a block of rows times a matrix, accumulated into the zero matrix by a matrix unit, is that block of rows of
  the host's product — whichever formats the two factors are held in (one may be a cast f32 value, the other a
  value loaded as bf16). A block that starts at row 0 and has every row is the matrix itself, and a block read at one
  entry is the matrix read `off` rows further down. No finiteness is asked of any entry.
-/
import proofs.«137457_j82411832476341_1_alg».proof.Proof.LibPlainRecord

noncomputable section

open scoped BigOperators

namespace Cert.Lib.DenseLayer

open Idealize.ShloMosaic Idealize.ShloMosaic.ValueIdx Cert.Lib.PlainDot

/-- A narrowing change of float format leaves a block of rows what it is. -/
theorem RowBlk.narrow {Mb M K : Nat} {off : Nat} {φ ψ : FTy} {a : FVec Ideal ⟨2, ![Mb, K]⟩ φ} {A : (⟨2, ![M, K]⟩ : Shape).Idx → EReal}
    (ha : RowBlk off a A) (hψ : ψ.bits < φ.bits) : RowBlk off (truncf ψ a hψ) A := ha

/-- A block of rows times a matrix, accumulated into the zero matrix, is the block of rows of the product,
    whatever float formats the two factors are held in. -/
theorem RowBlk.matmulZero {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh) {φ₁ φ₂ : FTy}
    {xb : FVec Ideal ⟨2, ![Mb, K]⟩ φ₁} {X : FVec Ideal ⟨2, ![M, K]⟩ .f32} (h : RowBlk off xb X) (w : FVec Ideal ⟨2, ![K, N]⟩ φ₂) :
    RowBlk off (Idealize.ShloMosaic.matmul db none xb w (constant ⟨2, ![Mb, N]⟩ .f32 0x00000000#32)) (Host.dotGeneral dh none X w) := fun r hr c =>
  ((Ideal.matmul_constant_zero_apply db none xb w (ix2 r c)).trans
    (contraction_sum db hb.rank hb.size hb.l0 hb.l1 hb.r0 hb.r1 xb w r c)).trans
    ((Finset.sum_congr rfl fun k _ => congrArg (· * w (ix2 k c)) (h r hr k)).trans
      (hh.dot_apply X w ⟨off + r.val, hr⟩ c).symm)

/-- A block that starts at row 0 and has all the rows is the matrix. -/
theorem RowBlk.eq_whole {M K : Nat} {a A : (⟨2, ![M, K]⟩ : Shape).Idx → EReal} (h : RowBlk 0 a A) : a = A := funext fun j => by
  rw [eq_ix2 j]
  exact (h (j 0) (by rw [Nat.zero_add]; exact (j 0).isLt) (j 1)).trans
    (congrArg (fun r => A (ix2 r (j 1))) (Fin.ext (Nat.zero_add _)))

/-- A block of rows read at one entry: position j inside the block and position i in the whole matrix, same column,
    row `off` further down, hold the same number. -/
theorem RowBlk.at {Mb M K : Nat} {off : Nat} {a : (⟨2, ![Mb, K]⟩ : Shape).Idx → EReal} {A : (⟨2, ![M, K]⟩ : Shape).Idx → EReal}
    (h : RowBlk off a A) (j : (⟨2, ![Mb, K]⟩ : Shape).Idx) (i : (⟨2, ![M, K]⟩ : Shape).Idx)
    (hi0 : (i 0).val = off + (j 0).val) (hi1 : (i 1).val = (j 1).val) : a j = A i := by
  rw [eq_ix2 j, eq_ix2 i]
  have hlt : off + (j 0).val < M := hi0 ▸ (i 0).isLt
  exact (h (j 0) hlt (j 1)).trans (congrArg₂ (fun r k => A (ix2 r k)) (Fin.ext hi0.symm) (Fin.ext hi1.symm))

end Cert.Lib.DenseLayer

end
-- ==== Proof.LibNarrowRight.lean ====
/-
  Blocks of rows of a dense layer at the extended reals: four more ways a block is carried.

  At the extended reals a float of every format is an extended real and a change of format is the identity. So a
  block of rows (held in any format) times a weight matrix that is narrowed from f32 on the way into the matrix
  unit, accumulated into the zero matrix, is that block of rows of the host's product with the weight matrix
  itself; the entrywise product of two blocks held in any one format is the block of the entrywise product; and
  a matrix filled with one number inside a kernel body and a rank-0 constant broadcast on the host are two
  constant matrices of one value; and a block of rows of a block of rows of a matrix is a block of rows of it. No
  finiteness is asked of any entry.
-/
import proofs.«137457_j82411832476341_1_alg».proof.Proof.LibBlockFormats

noncomputable section

open scoped BigOperators

namespace Cert.Lib.DenseLayer

open Idealize.ShloMosaic Idealize.ShloMosaic.ValueIdx Cert.Lib.PlainDot

/-- A block of rows in any format times a weight matrix narrowed from f32, accumulated into the zero matrix,
    is the block of rows of the host's product with the weight matrix itself: the narrowing is the identity,
    and both sides are the sum over k of x(r, k) · w(k, c). -/
theorem RowBlk.matmulNarrowRight {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh) {φ₁ ψ : FTy}
    {xb : FVec Ideal ⟨2, ![Mb, K]⟩ φ₁} {X : FVec Ideal ⟨2, ![M, K]⟩ .f32} (h : RowBlk off xb X)
    (w : FVec Ideal ⟨2, ![K, N]⟩ .f32) (hψ : ψ.bits < FTy.f32.bits) :
    RowBlk off (Idealize.ShloMosaic.matmul db none xb (truncf ψ w hψ) (constant ⟨2, ![Mb, N]⟩ .f32 0x00000000#32))
      (Host.dotGeneral dh none X w) := fun r hr c =>
  ((Ideal.matmul_constant_zero_apply db none xb (truncf ψ w hψ) (ix2 r c)).trans
    (contraction_sum db hb.rank hb.size hb.l0 hb.l1 hb.r0 hb.r1 xb (truncf ψ w hψ) r c)).trans
    ((Finset.sum_congr rfl fun k _ => congrArg (· * w (ix2 k c)) (h r hr k)).trans
      (hh.dot_apply X w ⟨off + r.val, hr⟩ c).symm)

/-- Entrywise products of blocks of rows held in any one float format. -/
theorem RowBlk.mulAny {Mb M K : Nat} {off : Nat} {φ : FTy} {a b : FVec Ideal ⟨2, ![Mb, K]⟩ φ}
    {A B : FVec Ideal ⟨2, ![M, K]⟩ .f32} (ha : RowBlk off a A) (hb : RowBlk off b B) :
    RowBlk off (mulf a b) (mulf A B) := fun r hr k => by
  rw [mulf_apply, mulf_apply]
  show a (ix2 r k) * b (ix2 r k) = A (ix2 ⟨off + r.val, hr⟩ k) * B (ix2 ⟨off + r.val, hr⟩ k)
  rw [ha r hr k, hb r hr k]

/-- A block filled with the float of one bit pattern inside a body, and the rank-0 constant of that pattern
    broadcast to a whole matrix on the host, are constant matrices of one value. -/
theorem RowBlk.fill {Mb M K : Nat} {off : Nat} (bits : BitVec FTy.f32.bits)
    (hB : (⟨0, ![]⟩ : Shape).BroadcastsInDim ⟨2, ![M, K]⟩ ![]) :
    RowBlk (Mb := Mb) off (broadcast ⟨2, ![Mb, K]⟩ (Scalar.ofBits (F := Ideal) .f32 bits))
      (broadcastInDim ⟨2, ![M, K]⟩ ![] hB (constant (F := Ideal) ⟨0, ![]⟩ .f32 bits)) := fun r hr k =>
  (broadcastInDim_apply _ hB (constant (F := Ideal) ⟨0, ![]⟩ .f32 bits) (ix2 ⟨off + r.val, hr⟩ k) (fun a => a.elim0)
    (fun a => a.elim0)).symm

/-- A block of rows of a block of rows is a block of rows: if xb is the rows of X from row off₂ + off₁ and Y is the rows
    of X from row off₂, then xb is the rows of Y from row off₁ (when it fits inside Y, and Y inside X). -/
theorem RowBlk.sub {Mb Mm M K : Nat} {off off₁ off₂ : Nat} {xb : (⟨2, ![Mb, K]⟩ : Shape).Idx → EReal}
    {X : (⟨2, ![M, K]⟩ : Shape).Idx → EReal} {Y : (⟨2, ![Mm, K]⟩ : Shape).Idx → EReal}
    (h : RowBlk off xb X) (hY : RowBlk off₂ Y X) (e : off = off₂ + off₁) (hM : off₂ + Mm ≤ M) :
    RowBlk off₁ xb Y := fun r hr k => by
  subst e
  have hr' : off₂ + off₁ + r.val < M := by omega
  rw [h r hr' k, hY ⟨off₁ + r.val, hr⟩ (by show off₂ + (off₁ + r.val) < M; omega) k]
  exact congrArg (fun q => X (ix2 q k)) (Fin.ext (by show off₂ + off₁ + r.val = off₂ + (off₁ + r.val); omega))

end Cert.Lib.DenseLayer

end
-- ==== Proof.DenseBlock.lean ====
/-
  One Chebyshev dense layer and the linear head, one block of rows at a time, at the extended reals.

  A layer takes the four Chebyshev terms T0 … T3 (matrices of 50000 rows and 128 columns), a table W of four
  128 x 128 weight matrices and a bias row b, and returns  max (((T0·W[0] + T1·W[1]) + T2·W[2]) + T3·W[3] + b, 0),
  the bias added to every row.  Each of these operations acts on a row by itself, so the value computed from a
  block of 2000 consecutive rows of T0 … T3 is the same block of rows of the value computed from the whole matrices.
  The head is the same with one product: H·Wc + bc.

  W[k], read inside a body, is a load through the rectangle of the table that starts at (k, 0, 0) and has extents
  (1, 128, 128); on the host it is the unit-stride slice with those offsets.  The two are one array.

  No finiteness is asked of any entry: both sides are the same sums of the same products.
-/
import proofs.«137457_j82411832476341_1_alg».proof.Proof.LibNarrowRight
import proofs.«137457_j82411832476341_1_alg».proof.Proof.Gen.KernelIdeal.Skeleton
import proofs.«137457_j82411832476341_1_alg».proof.Proof.Gen.ReferenceIdeal
import Idealize.ShloMosaic.Lib.Pipeline.Value
import Idealize.ShloMosaic.Lib.ValueIdx

noncomputable section

namespace Cert.Bridge

open Idealize.ShloMosaic Idealize.ShloMosaic.ValueIdx Cert.Lib.DenseLayer
open Cert.ReferenceIdeal Cert.ReferenceIdeal.Gen

/-! ## The host's spelling of a layer and of the head -/

/-- The k-th weight matrix of a table, as the host takes it: slice, then drop the unit axis. -/
def wslice0 (W : FVec Ideal S4x128x128 .f32) : FVec Ideal S128x128 .f32 :=
  shapeCast S128x128 (extractStridedSlice S1x128x128 ![0, 0, 0] W slices_S4x128x128_S1x128x128_0_0_0) shapeCasts_S1x128x128_S128x128
def wslice1 (W : FVec Ideal S4x128x128 .f32) : FVec Ideal S128x128 .f32 :=
  shapeCast S128x128 (extractStridedSlice S1x128x128 ![1, 0, 0] W slices_S4x128x128_S1x128x128_1_0_0) shapeCasts_S1x128x128_S128x128
def wslice2 (W : FVec Ideal S4x128x128 .f32) : FVec Ideal S128x128 .f32 :=
  shapeCast S128x128 (extractStridedSlice S1x128x128 ![2, 0, 0] W slices_S4x128x128_S1x128x128_2_0_0) shapeCasts_S1x128x128_S128x128
def wslice3 (W : FVec Ideal S4x128x128 .f32) : FVec Ideal S128x128 .f32 :=
  shapeCast S128x128 (extractStridedSlice S1x128x128 ![3, 0, 0] W slices_S4x128x128_S1x128x128_3_0_0) shapeCasts_S1x128x128_S128x128

/-- A bias row added to every one of 50000 rows, as the host spells it. -/
def biasRows (b : FVec Ideal S128 .f32) : FVec Ideal S50000x128 .f32 :=
  broadcastInDim S50000x128 ![0, 1] bcast_S1x128_S50000x128_0_1 (broadcastInDim S1x128 ![1] bcast_S128_S1x128_1 b)

/-- The all-zero matrix, as the host spells it. -/
def zeroRows : FVec Ideal S50000x128 .f32 :=
  broadcastInDim S50000x128 ![] bcast_S_S50000x128 (constant (F := Ideal) S_ .f32 0x00000000#32)

/-- One Chebyshev dense layer: max (((T0·W[0] + T1·W[1]) + T2·W[2]) + T3·W[3] + b, 0). -/
def DenseTerm (T0 T1 T2 T3 : FVec Ideal S50000x128 .f32) (W : FVec Ideal S4x128x128 .f32) (b : FVec Ideal S128 .f32) :
    FVec Ideal S50000x128 .f32 :=
  maximumf
    (addf
      (addf
        (addf
          (addf (Host.dotGeneral dot_S50000x128_S128x128_S50000x128_1_0_0_1_n_n none T0 (wslice0 W))
            (Host.dotGeneral dot_S50000x128_S128x128_S50000x128_1_0_0_1_n_n none T1 (wslice1 W)))
          (Host.dotGeneral dot_S50000x128_S128x128_S50000x128_1_0_0_1_n_n none T2 (wslice2 W)))
        (Host.dotGeneral dot_S50000x128_S128x128_S50000x128_1_0_0_1_n_n none T3 (wslice3 W)))
      (biasRows b))
    zeroRows

/-- The head on a 128-column weight matrix: H·Wc + bc. -/
def HeadTerm (H : FVec Ideal S50000x128 .f32) (Wc : FVec Ideal S128x128 .f32) (bc : FVec Ideal S128 .f32) :
    FVec Ideal S50000x128 .f32 :=
  addf (Host.dotGeneral dot_S50000x128_S128x128_S50000x128_1_0_0_1_n_n none H Wc) (biasRows bc)

/-! ## The product records read as textbook products -/

theorem plain_host : Plain dot_S50000x128_S128x128_S50000x128_1_0_0_1_n_n :=
  Plain.of_fields _ rfl rfl rfl rfl rfl rfl

theorem plain_body : Plain Cert.KernelIdeal.dot_S2000x128_S128x128_S2000x128_1_0_0_1_n_n :=
  Plain.of_fields _ rfl rfl rfl rfl rfl rfl

/-! ## A weight matrix loaded inside a body is the host's slice -/

/-- The rectangle of the weight table a body loads W[k] through. -/
abbrev rW (k : Nat) (inb : ∀ a, (![k, 0, 0] : Fin 3 → Nat) a + Cert.KernelIdeal.S1x128x128.size a ≤ Cert.KernelIdeal.S4x128x128.size a) :
    Rect Cert.KernelIdeal.S4x128x128 :=
  Rect.unit (s := Cert.KernelIdeal.S4x128x128) ![k, 0, 0] Cert.KernelIdeal.S1x128x128.size inb

/-- A load through the rectangle at offsets (k, 0, 0) with extents (1, 128, 128) is the unit-stride slice with those
    offsets: entry x of either is the table's entry at x shifted by the offsets. -/
theorem ld_eq_slice (k : Nat) (inb) (hs : S4x128x128.Slices ![k, 0, 0] S1x128x128) (W : Vec Ideal S4x128x128 .f32) :
    (View.ld (Val := Elt Ideal) (e' := EltTy.f32) W (rW k inb) : S1x128x128.Idx → EReal) = extractStridedSlice S1x128x128 ![k, 0, 0] W hs := by
  funext x
  refine (extractStridedSlice_apply ![k, 0, 0] W hs x ((rW k inb).emb x) (fun a => ?_)).symm
  show (![k, 0, 0] : Fin 3 → Nat) a + 1 * (x a).val = (![k, 0, 0] : Fin 3 → Nat) a + (x (a.cast _)).val
  rw [Nat.one_mul]; rfl

/-! ## A layer on a block of rows -/

/-- The body of a dense-layer kernel on the blocks x0 … x3 of rows of T0 … T3 that start at row `off`, with the
    whole weight table and bias row, is that block of rows of the layer of T0 … T3. -/
theorem dense_block {off : Nat}
    {x0 x1 x2 x3 : Vec Ideal Cert.KernelIdeal.S2000x128 .f32} {T0 T1 T2 T3 : FVec Ideal S50000x128 .f32}
    (h0 : RowBlk off x0 T0) (h1 : RowBlk off x1 T1) (h2 : RowBlk off x2 T2) (h3 : RowBlk off x3 T3)
    (W : Vec Ideal S4x128x128 .f32) (b : Vec Ideal S128 .f32) :
    RowBlk off
      (Cert.KernelIdeal.Gen.k0_pay1 (F := Ideal)
        (Cert.KernelIdeal.Gen.k0_pay2 (F := Ideal) x0 (View.ld (Val := Elt Ideal) (e' := EltTy.f32) W (rW 0 Cert.KernelIdeal.Gen.inb_S4x128x128_S1x128x128_0_0_0))
          x1 (View.ld (Val := Elt Ideal) (e' := EltTy.f32) W (rW 1 Cert.KernelIdeal.Gen.inb_S4x128x128_S1x128x128_1_0_0))
          x2 (View.ld (Val := Elt Ideal) (e' := EltTy.f32) W (rW 2 Cert.KernelIdeal.Gen.inb_S4x128x128_S1x128x128_2_0_0))
          x3 (View.ld (Val := Elt Ideal) (e' := EltTy.f32) W (rW 3 Cert.KernelIdeal.Gen.inb_S4x128x128_S1x128x128_3_0_0)))
        (Cert.KernelIdeal.Gen.k0_pay3 (F := Ideal) b))
      (DenseTerm T0 T1 T2 T3 W b) := by
  unfold Cert.KernelIdeal.Gen.k0_pay1 Cert.KernelIdeal.Gen.k0_pay2 Cert.KernelIdeal.Gen.k0_pay3 DenseTerm
  dsimp only
  simp only [shapeCast_self]
  rw [ld_eq_slice 0 _ slices_S4x128x128_S1x128x128_0_0_0, ld_eq_slice 1 _ slices_S4x128x128_S1x128x128_1_0_0,
    ld_eq_slice 2 _ slices_S4x128x128_S1x128x128_2_0_0, ld_eq_slice 3 _ slices_S4x128x128_S1x128x128_3_0_0]
  refine RowBlk.max (RowBlk.add (RowBlk.add (RowBlk.add (RowBlk.add ?_ ?_) ?_) ?_) ?_) ?_
  · exact RowBlk.matmulNarrowRight plain_body plain_host (h0.narrow _) (wslice0 W) _
  · exact RowBlk.matmulNarrowRight plain_body plain_host (h1.narrow _) (wslice1 W) _
  · exact RowBlk.matmulNarrowRight plain_body plain_host (h2.narrow _) (wslice2 W) _
  · exact RowBlk.matmulNarrowRight plain_body plain_host (h3.narrow _) (wslice3 W) _
  · unfold biasRows
    rw [addUnit_eq_bcast (n := 128) (by decide) b _ bcast_S128_S1x128_1]
    exact RowBlk.bias _ _ _
  · exact RowBlk.fill 0x00000000#32 _

/-! ## The head on a block of rows -/

/-- The body of the head kernel on the block x of rows of H that starts at row `off`, with the whole weight matrix
    and bias row, is that block of rows of H·Wc + bc. -/
theorem head_block {off : Nat} {x : Vec Ideal Cert.KernelIdeal.S2000x128 .f32} {H : FVec Ideal S50000x128 .f32}
    (h : RowBlk off x H) (Wc : Vec Ideal S128x128 .f32) (bc : Vec Ideal S128 .f32) :
    RowBlk off (Cert.KernelIdeal.Gen.k2_pay1 (F := Ideal) x Wc bc) (HeadTerm H Wc bc) := by
  unfold Cert.KernelIdeal.Gen.k2_pay1 HeadTerm
  dsimp only
  simp only [shapeCast_self]
  refine RowBlk.add ?_ ?_
  · exact RowBlk.matmulNarrowRight plain_body plain_host (h.narrow _) Wc _
  · unfold biasRows
    rw [addUnit_eq_bcast (n := 128) (by decide) bc _ bcast_S128_S1x128_1]
    exact RowBlk.bias _ _ _

end Cert.Bridge

end
-- ==== Proof.Region0.lean ====
/-
  Dense-layer region 0 of the idealized kernel program, read as a value: for any contents V of the buffers when the
  region is entered, the array its output window leaves is the Chebyshev dense layer of the six arrays it reads.

  The grid has 25 points. At point t the four term windows hold rows 2000·t … 2000·t + 1999 of their arrays, the weight
  table and the bias row are held whole, and the body's result — by the block lemma, that block of rows of the layer of
  the whole arrays — is written back to rows 2000·t … of the output. The 25 blocks tile the 50000 rows.
-/
import proofs.«137457_j82411832476341_1_alg».proof.Proof.DenseBlock
import proofs.«137457_j82411832476341_1_alg».proof.Proof.Gen.KernelIdeal.Frame

set_option maxRecDepth 16384

noncomputable section

namespace Cert.Bridge.Region0

open Idealize.ShloMosaic Idealize.ShloMosaic.TcCoe Idealize.ShloMosaic.ValueIdx Idealize.SL.Sem
open Idealize.ShloMosaic.Pipeline (Dat)
open Cert.KernelIdeal Cert.KernelIdeal.Gen Cert.Lib.DenseLayer Cert.Bridge

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The four term windows and the output window sit at block (t, 0) at point t. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_6.index t (0 : Fin 2) = t.val ∧ win0_6.index t (1 : Fin 2) = 0) :=
  (by decide +kernel : ∀ t : Fin grid0.N, _)

/-- The weight table and the bias row sit at block 0 at every point. -/
theorem idx_whole : ∀ t : Fin cfg0.N,
    win0_4.index t (0 : Fin 3) = 0 ∧ win0_4.index t (1 : Fin 3) = 0 ∧ win0_4.index t (2 : Fin 3) = 0
    ∧ win0_5.index t (0 : Fin 1) = 0 :=
  (by decide +kernel : ∀ t : Fin grid0.N, _)

/-- Input window 0's block at point t is rows 2000·t … 2000·t + 1999 of its array. -/
theorem rows0 (c : Dev nD) (t : Fin cfg0.N) :
    RowBlk (Mb := 2000) (M := 50000) (K := 128) (2000 * t.val) (iblk0 V c 0 t) (V c main_v30) := fun r hr k => by
  have e0 : win0_0.index t (0 : Fin 2) = t.val := (idx_rows t).1.1
  have e1 : win0_0.index t (1 : Fin 2) = 0 := (idx_rows t).1.2
  show V c main_v30 (((cfg0.win 0).blk t).view.emb (ix2 r k)) = V c main_v30 (ix2 ⟨2000 * t.val + r.val, hr⟩ k)
  refine congrArg (V c main_v30) (funext fun a => Fin.ext ?_)
  match a with
  | ⟨0, _⟩ => show win0_0.index t (0 : Fin 2) * 2000 + 1 * r.val = 2000 * t.val + r.val; omega
  | ⟨1, _⟩ => show win0_0.index t (1 : Fin 2) * 128 + 1 * k.val = k.val; omega

/-- Input window 1's block at point t is rows 2000·t … 2000·t + 1999 of its array. -/
theorem rows1 (c : Dev nD) (t : Fin cfg0.N) :
    RowBlk (Mb := 2000) (M := 50000) (K := 128) (2000 * t.val) (iblk0 V c 1 t) (V c main_v43) := fun r hr k => by
  have e0 : win0_1.index t (0 : Fin 2) = t.val := (idx_rows t).2.1.1
  have e1 : win0_1.index t (1 : Fin 2) = 0 := (idx_rows t).2.1.2
  show V c main_v43 (((cfg0.win 1).blk t).view.emb (ix2 r k)) = V c main_v43 (ix2 ⟨2000 * t.val + r.val, hr⟩ k)
  refine congrArg (V c main_v43) (funext fun a => Fin.ext ?_)
  match a with
  | ⟨0, _⟩ => show win0_1.index t (0 : Fin 2) * 2000 + 1 * r.val = 2000 * t.val + r.val; omega
  | ⟨1, _⟩ => show win0_1.index t (1 : Fin 2) * 128 + 1 * k.val = k.val; omega

/-- Input window 2's block at point t is rows 2000·t … 2000·t + 1999 of its array. -/
theorem rows2 (c : Dev nD) (t : Fin cfg0.N) :
    RowBlk (Mb := 2000) (M := 50000) (K := 128) (2000 * t.val) (iblk0 V c 2 t) (V c main_v59) := fun r hr k => by
  have e0 : win0_2.index t (0 : Fin 2) = t.val := (idx_rows t).2.2.1.1
  have e1 : win0_2.index t (1 : Fin 2) = 0 := (idx_rows t).2.2.1.2
  show V c main_v59 (((cfg0.win 2).blk t).view.emb (ix2 r k)) = V c main_v59 (ix2 ⟨2000 * t.val + r.val, hr⟩ k)
  refine congrArg (V c main_v59) (funext fun a => Fin.ext ?_)
  match a with
  | ⟨0, _⟩ => show win0_2.index t (0 : Fin 2) * 2000 + 1 * r.val = 2000 * t.val + r.val; omega
  | ⟨1, _⟩ => show win0_2.index t (1 : Fin 2) * 128 + 1 * k.val = k.val; omega

/-- Input window 3's block at point t is rows 2000·t … 2000·t + 1999 of its array. -/
theorem rows3 (c : Dev nD) (t : Fin cfg0.N) :
    RowBlk (Mb := 2000) (M := 50000) (K := 128) (2000 * t.val) (iblk0 V c 3 t) (V c main_v75) := fun r hr k => by
  have e0 : win0_3.index t (0 : Fin 2) = t.val := (idx_rows t).2.2.2.1.1
  have e1 : win0_3.index t (1 : Fin 2) = 0 := (idx_rows t).2.2.2.1.2
  show V c main_v75 (((cfg0.win 3).blk t).view.emb (ix2 r k)) = V c main_v75 (ix2 ⟨2000 * t.val + r.val, hr⟩ k)
  refine congrArg (V c main_v75) (funext fun a => Fin.ext ?_)
  match a with
  | ⟨0, _⟩ => show win0_3.index t (0 : Fin 2) * 2000 + 1 * r.val = 2000 * t.val + r.val; omega
  | ⟨1, _⟩ => show win0_3.index t (1 : Fin 2) * 128 + 1 * k.val = k.val; omega

/-- The weight table's block at every point is the whole table. -/
theorem wholeW (c : Dev nD) (t : Fin cfg0.N) : (iblk0 V c 4 t : S4x128x128.Idx → EReal) = V c main_arg4 := by
  obtain ⟨e0, e1, e2, -⟩ := idx_whole t
  funext x
  show V c main_arg4 (((cfg0.win 4).blk t).view.emb x) = V c main_arg4 x
  refine congrArg (V c main_arg4) (funext fun a => Fin.ext ?_)
  match a with
  | ⟨0, _⟩ => show win0_4.index t (0 : Fin 3) * 4 + 1 * (x 0).val = (x 0).val; omega
  | ⟨1, _⟩ => show win0_4.index t (1 : Fin 3) * 128 + 1 * (x 1).val = (x 1).val; omega
  | ⟨2, _⟩ => show win0_4.index t (2 : Fin 3) * 128 + 1 * (x 2).val = (x 2).val; omega

/-- The bias row's block at every point is the whole row. -/
theorem wholeB (c : Dev nD) (t : Fin cfg0.N) : (iblk0 V c 5 t : S128.Idx → EReal) = V c main_arg5 := by
  obtain ⟨-, -, -, e0⟩ := idx_whole t
  funext x
  show V c main_arg5 (((cfg0.win 5).blk t).view.emb x) = V c main_arg5 x
  refine congrArg (V c main_arg5) (funext fun a => Fin.ext ?_)
  match a with
  | ⟨0, _⟩ => show win0_5.index t (0 : Fin 1) * 128 + 1 * (x 0).val = (x 0).val; omega

/-- What point t writes back is block t of the layer of the arrays as the region finds them. -/
theorem flushed_eq (c : Dev nD) (t : Fin cfg0.N) :
    (dat0 V c).flushed 6 t = ((cfg0.win 6).blk t).view.read (Elt Ideal)
      (DenseTerm (V c main_v30) (V c main_v43) (V c main_v59) (V c main_v75) (V c main_arg4) (V c main_arg5)) := by
  show (cfg0.win 6).cut (grid0.coords t) ((dat0 V c).after 6 t) = _
  rw [after0_6]
  unfold out0_6
  rw [View.canon_unit_zero hz2]
  simp only [View.ld_unit_zero (S := S2000x128) hz2, View.ld_unit_zero (S := S128) hz1]
  funext y
  have e0 : win0_6.index t (0 : Fin 2) = t.val := (idx_rows t).2.2.2.2.1
  have e1 : win0_6.index t (1 : Fin 2) = 0 := (idx_rows t).2.2.2.2.2
  have h := (dense_block (rows0 V c t) (rows1 V c t) (rows2 V c t) (rows3 V c t) (iblk0 V c 4 t) (iblk0 V c 5 t)).at y
    (((cfg0.win 6).blk t).view.emb y)
    (by show win0_6.index t (0 : Fin 2) * 2000 + 1 * (y 0).val = 2000 * t.val + (y 0).val; omega)
    (by show win0_6.index t (1 : Fin 2) * 128 + 1 * (y 1).val = (y 1).val; omega)
  exact h.trans (congrArg (fun G : S50000x128.Idx → EReal => G (((cfg0.win 6).blk t).view.emb y))
    (congrArg₂ (DenseTerm (V c main_v30) (V c main_v43) (V c main_v59) (V c main_v75)) (wholeW V c t) (wholeB V c t)))

/-- An index of the output array is in point t's block iff each coordinate is in the block's range on its axis. -/
theorem mem_blk (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v76).slice (win0_6.rect t)).set ↔ _
  rw [View.set_slice_whole, Rect.mem_set_unit]
  exact Iff.rfl

/-- Row r of the output is in the block of point r / 2000. -/
theorem cover (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  have hN : grid0.N = 25 := N_0
  have ht : (i 0).val / 2000 < cfg0.N := by show (i 0).val / 2000 < grid0.N; rw [hN]; omega
  have e0 : win0_6.index ⟨(i 0).val / 2000, ht⟩ (0 : Fin 2) = (i 0).val / 2000 := (idx_rows ⟨(i 0).val / 2000, ht⟩).2.2.2.2.1
  have e1 : win0_6.index ⟨(i 0).val / 2000, ht⟩ (1 : Fin 2) = 0 := (idx_rows ⟨(i 0).val / 2000, ht⟩).2.2.2.2.2
  refine ⟨⟨(i 0).val / 2000, ht⟩, flush0_6 _, ?_⟩
  rw [mem_blk]
  intro a
  match a with
  | ⟨0, _⟩ =>
    show win0_6.index ⟨(i 0).val / 2000, ht⟩ (0 : Fin 2) * 2000 ≤ (i 0).val ∧ (i 0).val < win0_6.index ⟨(i 0).val / 2000, ht⟩ (0 : Fin 2) * 2000 + 2000
    rw [e0]; omega
  | ⟨1, _⟩ =>
    show win0_6.index ⟨(i 0).val / 2000, ht⟩ (1 : Fin 2) * 128 ≤ (i 1).val ∧ (i 1).val < win0_6.index ⟨(i 0).val / 2000, ht⟩ (1 : Fin 2) * 128 + 128
    rw [e1]; omega

/-- The output array after the region: the layer of the arrays as the region finds them. -/
theorem final (c : Dev nD) : (dat0 V c).arrAt 6 cfg0.N
    = DenseTerm (V c main_v30) (V c main_v43) (V c main_v59) (V c main_v75) (V c main_arg4) (V c main_arg5) :=
  (dat0 V c).arrAt_eq_of_cover 6 _ (fun t _ => flushed_eq V c t) cover

end Cert.Bridge.Region0

end
-- ==== Proof.Region1.lean ====
/-
  Dense-layer region 1 of the idealized kernel program, read as a value: for any contents V of the buffers when the
  region is entered, the array its output window leaves is the Chebyshev dense layer of the six arrays it reads.

  The grid has 25 points. At point t the four term windows hold rows 2000·t … 2000·t + 1999 of their arrays, the weight
  table and the bias row are held whole, and the body's result — by the block lemma, that block of rows of the layer of
  the whole arrays — is written back to rows 2000·t … of the output. The 25 blocks tile the 50000 rows.
-/
import proofs.«137457_j82411832476341_1_alg».proof.Proof.DenseBlock
import proofs.«137457_j82411832476341_1_alg».proof.Proof.Gen.KernelIdeal.Frame

set_option maxRecDepth 16384

noncomputable section

namespace Cert.Bridge.Region1

open Idealize.ShloMosaic Idealize.ShloMosaic.TcCoe Idealize.ShloMosaic.ValueIdx Idealize.SL.Sem
open Idealize.ShloMosaic.Pipeline (Dat)
open Cert.KernelIdeal Cert.KernelIdeal.Gen Cert.Lib.DenseLayer Cert.Bridge

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The four term windows and the output window sit at block (t, 0) at point t. -/
theorem idx_rows : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_6.index t (0 : Fin 2) = t.val ∧ win1_6.index t (1 : Fin 2) = 0) :=
  (by decide +kernel : ∀ t : Fin grid1.N, _)

/-- The weight table and the bias row sit at block 0 at every point. -/
theorem idx_whole : ∀ t : Fin cfg1.N,
    win1_4.index t (0 : Fin 3) = 0 ∧ win1_4.index t (1 : Fin 3) = 0 ∧ win1_4.index t (2 : Fin 3) = 0
    ∧ win1_5.index t (0 : Fin 1) = 0 :=
  (by decide +kernel : ∀ t : Fin grid1.N, _)

/-- Input window 0's block at point t is rows 2000·t … 2000·t + 1999 of its array. -/
theorem rows0 (c : Dev nD) (t : Fin cfg1.N) :
    RowBlk (Mb := 2000) (M := 50000) (K := 128) (2000 * t.val) (iblk1 V c 0 t) (V c main_v76) := fun r hr k => by
  have e0 : win1_0.index t (0 : Fin 2) = t.val := (idx_rows t).1.1
  have e1 : win1_0.index t (1 : Fin 2) = 0 := (idx_rows t).1.2
  show V c main_v76 (((cfg1.win 0).blk t).view.emb (ix2 r k)) = V c main_v76 (ix2 ⟨2000 * t.val + r.val, hr⟩ k)
  refine congrArg (V c main_v76) (funext fun a => Fin.ext ?_)
  match a with
  | ⟨0, _⟩ => show win1_0.index t (0 : Fin 2) * 2000 + 1 * r.val = 2000 * t.val + r.val; omega
  | ⟨1, _⟩ => show win1_0.index t (1 : Fin 2) * 128 + 1 * k.val = k.val; omega

/-- Input window 1's block at point t is rows 2000·t … 2000·t + 1999 of its array. -/
theorem rows1 (c : Dev nD) (t : Fin cfg1.N) :
    RowBlk (Mb := 2000) (M := 50000) (K := 128) (2000 * t.val) (iblk1 V c 1 t) (V c main_v89) := fun r hr k => by
  have e0 : win1_1.index t (0 : Fin 2) = t.val := (idx_rows t).2.1.1
  have e1 : win1_1.index t (1 : Fin 2) = 0 := (idx_rows t).2.1.2
  show V c main_v89 (((cfg1.win 1).blk t).view.emb (ix2 r k)) = V c main_v89 (ix2 ⟨2000 * t.val + r.val, hr⟩ k)
  refine congrArg (V c main_v89) (funext fun a => Fin.ext ?_)
  match a with
  | ⟨0, _⟩ => show win1_1.index t (0 : Fin 2) * 2000 + 1 * r.val = 2000 * t.val + r.val; omega
  | ⟨1, _⟩ => show win1_1.index t (1 : Fin 2) * 128 + 1 * k.val = k.val; omega

/-- Input window 2's block at point t is rows 2000·t … 2000·t + 1999 of its array. -/
theorem rows2 (c : Dev nD) (t : Fin cfg1.N) :
    RowBlk (Mb := 2000) (M := 50000) (K := 128) (2000 * t.val) (iblk1 V c 2 t) (V c main_v105) := fun r hr k => by
  have e0 : win1_2.index t (0 : Fin 2) = t.val := (idx_rows t).2.2.1.1
  have e1 : win1_2.index t (1 : Fin 2) = 0 := (idx_rows t).2.2.1.2
  show V c main_v105 (((cfg1.win 2).blk t).view.emb (ix2 r k)) = V c main_v105 (ix2 ⟨2000 * t.val + r.val, hr⟩ k)
  refine congrArg (V c main_v105) (funext fun a => Fin.ext ?_)
  match a with
  | ⟨0, _⟩ => show win1_2.index t (0 : Fin 2) * 2000 + 1 * r.val = 2000 * t.val + r.val; omega
  | ⟨1, _⟩ => show win1_2.index t (1 : Fin 2) * 128 + 1 * k.val = k.val; omega

/-- Input window 3's block at point t is rows 2000·t … 2000·t + 1999 of its array. -/
theorem rows3 (c : Dev nD) (t : Fin cfg1.N) :
    RowBlk (Mb := 2000) (M := 50000) (K := 128) (2000 * t.val) (iblk1 V c 3 t) (V c main_v121) := fun r hr k => by
  have e0 : win1_3.index t (0 : Fin 2) = t.val := (idx_rows t).2.2.2.1.1
  have e1 : win1_3.index t (1 : Fin 2) = 0 := (idx_rows t).2.2.2.1.2
  show V c main_v121 (((cfg1.win 3).blk t).view.emb (ix2 r k)) = V c main_v121 (ix2 ⟨2000 * t.val + r.val, hr⟩ k)
  refine congrArg (V c main_v121) (funext fun a => Fin.ext ?_)
  match a with
  | ⟨0, _⟩ => show win1_3.index t (0 : Fin 2) * 2000 + 1 * r.val = 2000 * t.val + r.val; omega
  | ⟨1, _⟩ => show win1_3.index t (1 : Fin 2) * 128 + 1 * k.val = k.val; omega

/-- The weight table's block at every point is the whole table. -/
theorem wholeW (c : Dev nD) (t : Fin cfg1.N) : (iblk1 V c 4 t : S4x128x128.Idx → EReal) = V c main_arg6 := by
  obtain ⟨e0, e1, e2, -⟩ := idx_whole t
  funext x
  show V c main_arg6 (((cfg1.win 4).blk t).view.emb x) = V c main_arg6 x
  refine congrArg (V c main_arg6) (funext fun a => Fin.ext ?_)
  match a with
  | ⟨0, _⟩ => show win1_4.index t (0 : Fin 3) * 4 + 1 * (x 0).val = (x 0).val; omega
  | ⟨1, _⟩ => show win1_4.index t (1 : Fin 3) * 128 + 1 * (x 1).val = (x 1).val; omega
  | ⟨2, _⟩ => show win1_4.index t (2 : Fin 3) * 128 + 1 * (x 2).val = (x 2).val; omega

/-- The bias row's block at every point is the whole row. -/
theorem wholeB (c : Dev nD) (t : Fin cfg1.N) : (iblk1 V c 5 t : S128.Idx → EReal) = V c main_arg7 := by
  obtain ⟨-, -, -, e0⟩ := idx_whole t
  funext x
  show V c main_arg7 (((cfg1.win 5).blk t).view.emb x) = V c main_arg7 x
  refine congrArg (V c main_arg7) (funext fun a => Fin.ext ?_)
  match a with
  | ⟨0, _⟩ => show win1_5.index t (0 : Fin 1) * 128 + 1 * (x 0).val = (x 0).val; omega

/-- What point t writes back is block t of the layer of the arrays as the region finds them. -/
theorem flushed_eq (c : Dev nD) (t : Fin cfg1.N) :
    (dat1 V c).flushed 6 t = ((cfg1.win 6).blk t).view.read (Elt Ideal)
      (DenseTerm (V c main_v76) (V c main_v89) (V c main_v105) (V c main_v121) (V c main_arg6) (V c main_arg7)) := by
  show (cfg1.win 6).cut (grid1.coords t) ((dat1 V c).after 6 t) = _
  rw [after1_6]
  unfold out1_6
  rw [View.canon_unit_zero hz2]
  simp only [View.ld_unit_zero (S := S2000x128) hz2, View.ld_unit_zero (S := S128) hz1]
  funext y
  have e0 : win1_6.index t (0 : Fin 2) = t.val := (idx_rows t).2.2.2.2.1
  have e1 : win1_6.index t (1 : Fin 2) = 0 := (idx_rows t).2.2.2.2.2
  have h := (dense_block (rows0 V c t) (rows1 V c t) (rows2 V c t) (rows3 V c t) (iblk1 V c 4 t) (iblk1 V c 5 t)).at y
    (((cfg1.win 6).blk t).view.emb y)
    (by show win1_6.index t (0 : Fin 2) * 2000 + 1 * (y 0).val = 2000 * t.val + (y 0).val; omega)
    (by show win1_6.index t (1 : Fin 2) * 128 + 1 * (y 1).val = (y 1).val; omega)
  exact h.trans (congrArg (fun G : S50000x128.Idx → EReal => G (((cfg1.win 6).blk t).view.emb y))
    (congrArg₂ (DenseTerm (V c main_v76) (V c main_v89) (V c main_v105) (V c main_v121)) (wholeW V c t) (wholeB V c t)))

/-- An index of the output array is in point t's block iff each coordinate is in the block's range on its axis. -/
theorem mem_blk (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v122).slice (win1_6.rect t)).set ↔ _
  rw [View.set_slice_whole, Rect.mem_set_unit]
  exact Iff.rfl

/-- Row r of the output is in the block of point r / 2000. -/
theorem cover (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  have hN : grid1.N = 25 := N_1
  have ht : (i 0).val / 2000 < cfg1.N := by show (i 0).val / 2000 < grid1.N; rw [hN]; omega
  have e0 : win1_6.index ⟨(i 0).val / 2000, ht⟩ (0 : Fin 2) = (i 0).val / 2000 := (idx_rows ⟨(i 0).val / 2000, ht⟩).2.2.2.2.1
  have e1 : win1_6.index ⟨(i 0).val / 2000, ht⟩ (1 : Fin 2) = 0 := (idx_rows ⟨(i 0).val / 2000, ht⟩).2.2.2.2.2
  refine ⟨⟨(i 0).val / 2000, ht⟩, flush1_6 _, ?_⟩
  rw [mem_blk]
  intro a
  match a with
  | ⟨0, _⟩ =>
    show win1_6.index ⟨(i 0).val / 2000, ht⟩ (0 : Fin 2) * 2000 ≤ (i 0).val ∧ (i 0).val < win1_6.index ⟨(i 0).val / 2000, ht⟩ (0 : Fin 2) * 2000 + 2000
    rw [e0]; omega
  | ⟨1, _⟩ =>
    show win1_6.index ⟨(i 0).val / 2000, ht⟩ (1 : Fin 2) * 128 ≤ (i 1).val ∧ (i 1).val < win1_6.index ⟨(i 0).val / 2000, ht⟩ (1 : Fin 2) * 128 + 128
    rw [e1]; omega

/-- The output array after the region: the layer of the arrays as the region finds them. -/
theorem final (c : Dev nD) : (dat1 V c).arrAt 6 cfg1.N
    = DenseTerm (V c main_v76) (V c main_v89) (V c main_v105) (V c main_v121) (V c main_arg6) (V c main_arg7) :=
  (dat1 V c).arrAt_eq_of_cover 6 _ (fun t _ => flushed_eq V c t) cover

end Cert.Bridge.Region1

end
-- ==== Proof.Region2.lean ====
/-
  The head region of the idealized kernel program, read as a value: for any contents V of the buffers when the region
  is entered, the array its output window leaves is H·Wc + bc, the bias row bc added to every row, of the three arrays
  it reads.

  The grid has 25 points. At point t the first window holds rows 2000·t … 2000·t + 1999 of H, the weight matrix and the
  bias row are held whole, and the body's result — that block of rows of H·Wc + bc — is written back to rows 2000·t …
  of the output. The 25 blocks tile the 50000 rows.
-/
import proofs.«137457_j82411832476341_1_alg».proof.Proof.DenseBlock
import proofs.«137457_j82411832476341_1_alg».proof.Proof.Gen.KernelIdeal.Frame

set_option maxRecDepth 16384

noncomputable section

namespace Cert.Bridge.Region2

open Idealize.ShloMosaic Idealize.ShloMosaic.TcCoe Idealize.ShloMosaic.ValueIdx Idealize.SL.Sem
open Idealize.ShloMosaic.Pipeline (Dat)
open Cert.KernelIdeal Cert.KernelIdeal.Gen Cert.Lib.DenseLayer Cert.Bridge

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The first window and the output window sit at block (t, 0) at point t; the weight matrix and the bias row at
    block 0. -/
theorem idx_facts : ∀ t : Fin cfg2.N,
    (win2_0.index t (0 : Fin 2) = t.val ∧ win2_0.index t (1 : Fin 2) = 0)
    ∧ (win2_3.index t (0 : Fin 2) = t.val ∧ win2_3.index t (1 : Fin 2) = 0)
    ∧ (win2_1.index t (0 : Fin 2) = 0 ∧ win2_1.index t (1 : Fin 2) = 0)
    ∧ win2_2.index t (0 : Fin 1) = 0 :=
  (by decide +kernel : ∀ t : Fin grid2.N, _)

/-- The first window's block at point t is rows 2000·t … 2000·t + 1999 of its array. -/
theorem rows0 (c : Dev nD) (t : Fin cfg2.N) :
    RowBlk (Mb := 2000) (M := 50000) (K := 128) (2000 * t.val) (iblk2 V c 0 t) (V c main_v122) := fun r hr k => by
  have e0 : win2_0.index t (0 : Fin 2) = t.val := (idx_facts t).1.1
  have e1 : win2_0.index t (1 : Fin 2) = 0 := (idx_facts t).1.2
  show V c main_v122 (((cfg2.win 0).blk t).view.emb (ix2 r k)) = V c main_v122 (ix2 ⟨2000 * t.val + r.val, hr⟩ k)
  refine congrArg (V c main_v122) (funext fun a => Fin.ext ?_)
  match a with
  | ⟨0, _⟩ => show win2_0.index t (0 : Fin 2) * 2000 + 1 * r.val = 2000 * t.val + r.val; omega
  | ⟨1, _⟩ => show win2_0.index t (1 : Fin 2) * 128 + 1 * k.val = k.val; omega

/-- The weight matrix's block at every point is the whole matrix. -/
theorem wholeW (c : Dev nD) (t : Fin cfg2.N) : (iblk2 V c 1 t : S128x128.Idx → EReal) = V c main_v123 := by
  have e0 : win2_1.index t (0 : Fin 2) = 0 := (idx_facts t).2.2.1.1
  have e1 : win2_1.index t (1 : Fin 2) = 0 := (idx_facts t).2.2.1.2
  funext x
  show V c main_v123 (((cfg2.win 1).blk t).view.emb x) = V c main_v123 x
  refine congrArg (V c main_v123) (funext fun a => Fin.ext ?_)
  match a with
  | ⟨0, _⟩ => show win2_1.index t (0 : Fin 2) * 128 + 1 * (x 0).val = (x 0).val; omega
  | ⟨1, _⟩ => show win2_1.index t (1 : Fin 2) * 128 + 1 * (x 1).val = (x 1).val; omega

/-- The bias row's block at every point is the whole row. -/
theorem wholeB (c : Dev nD) (t : Fin cfg2.N) : (iblk2 V c 2 t : S128.Idx → EReal) = V c main_v124 := by
  have e0 : win2_2.index t (0 : Fin 1) = 0 := (idx_facts t).2.2.2
  funext x
  show V c main_v124 (((cfg2.win 2).blk t).view.emb x) = V c main_v124 x
  refine congrArg (V c main_v124) (funext fun a => Fin.ext ?_)
  match a with
  | ⟨0, _⟩ => show win2_2.index t (0 : Fin 1) * 128 + 1 * (x 0).val = (x 0).val; omega

/-- What point t writes back is block t of H·Wc + bc of the arrays as the region finds them. -/
theorem flushed_eq (c : Dev nD) (t : Fin cfg2.N) :
    (dat2 V c).flushed 3 t = ((cfg2.win 3).blk t).view.read (Elt Ideal)
      (HeadTerm (V c main_v122) (V c main_v123) (V c main_v124)) := by
  show (cfg2.win 3).cut (grid2.coords t) ((dat2 V c).after 3 t) = _
  rw [after2_3]
  unfold out2_3
  rw [View.canon_unit_zero hz2]
  simp only [View.ld_unit_zero (S := S2000x128) hz2, View.ld_unit_zero (S := S128x128) hz2, View.ld_unit_zero (S := S128) hz1]
  funext y
  have e0 : win2_3.index t (0 : Fin 2) = t.val := (idx_facts t).2.1.1
  have e1 : win2_3.index t (1 : Fin 2) = 0 := (idx_facts t).2.1.2
  have h := (head_block (rows0 V c t) (iblk2 V c 1 t) (iblk2 V c 2 t)).at y
    (((cfg2.win 3).blk t).view.emb y)
    (by show win2_3.index t (0 : Fin 2) * 2000 + 1 * (y 0).val = 2000 * t.val + (y 0).val; omega)
    (by show win2_3.index t (1 : Fin 2) * 128 + 1 * (y 1).val = (y 1).val; omega)
  exact h.trans (congrArg (fun G : S50000x128.Idx → EReal => G (((cfg2.win 3).blk t).view.emb y))
    (congrArg₂ (HeadTerm (V c main_v122)) (wholeW V c t) (wholeB V c t)))

/-- An index of the output array is in point t's block iff each coordinate is in the block's range on its axis. -/
theorem mem_blk (t : Fin cfg2.N) (i : S50000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v125).slice (win2_3.rect t)).set ↔ _
  rw [View.set_slice_whole, Rect.mem_set_unit]
  exact Iff.rfl

/-- Row r of the output is in the block of point r / 2000. -/
theorem cover (i : S50000x128.Idx) : ∃ t : Fin cfg2.N, (cfg2.win 3).flush t = true ∧ i ∈ ((cfg2.win 3).blk t).view.set := by
  have hi0 : (i 0).val < 50000 := (i 0).isLt
  have hi1 : (i 1).val < 128 := (i 1).isLt
  have hN : grid2.N = 25 := N_2
  have ht : (i 0).val / 2000 < cfg2.N := by show (i 0).val / 2000 < grid2.N; rw [hN]; omega
  have e0 : win2_3.index ⟨(i 0).val / 2000, ht⟩ (0 : Fin 2) = (i 0).val / 2000 := (idx_facts ⟨(i 0).val / 2000, ht⟩).2.1.1
  have e1 : win2_3.index ⟨(i 0).val / 2000, ht⟩ (1 : Fin 2) = 0 := (idx_facts ⟨(i 0).val / 2000, ht⟩).2.1.2
  refine ⟨⟨(i 0).val / 2000, ht⟩, flush2_3 _, ?_⟩
  rw [mem_blk]
  intro a
  match a with
  | ⟨0, _⟩ =>
    show win2_3.index ⟨(i 0).val / 2000, ht⟩ (0 : Fin 2) * 2000 ≤ (i 0).val ∧ (i 0).val < win2_3.index ⟨(i 0).val / 2000, ht⟩ (0 : Fin 2) * 2000 + 2000
    rw [e0]; omega
  | ⟨1, _⟩ =>
    show win2_3.index ⟨(i 0).val / 2000, ht⟩ (1 : Fin 2) * 128 ≤ (i 1).val ∧ (i 1).val < win2_3.index ⟨(i 0).val / 2000, ht⟩ (1 : Fin 2) * 128 + 128
    rw [e1]; omega

/-- The output array after the region: H·Wc + bc of the arrays as the region finds them. -/
theorem final (c : Dev nD) : (dat2 V c).arrAt 3 cfg2.N = HeadTerm (V c main_v122) (V c main_v123) (V c main_v124) :=
  (dat2 V c).arrAt_eq_of_cover 3 _ (fun t _ => flushed_eq V c t) cover

end Cert.Bridge.Region2

end
-- ==== Proof.Boundary3.lean ====
/-
  The buffers of the idealized kernel program when its first region is entered and when it is left, as functions of
  the twelve arguments.

  The kernel program and the reference compute the same Chebyshev recurrence with the same host operations: the two
  index vectors src and dst; the degrees, a segment sum of the edge weights; d^(−1/2), taken as 0 where the degree is
  not positive; the edge weights w = −d(src)^(−1/2) · weight · d(dst)^(−1/2); T0 = [x | lap_pe]; and, with
  prop t = segment_sum (w · t[src], dst), T1 = prop T0, T2 = 2·prop T1 − T0, T3 = 2·prop T2 − T1. Each of these values is
  computed once and read several times. So the host operations before the first region are followed one value at a
  time: the buffers after the first stretch, after the inverse-square-root selection, after w and T0, after T1, after
  T2, and after T3, each holding the reference's own intermediate value (its operations' stages, as functions of the
  arguments), read off from the previous ones by running the operations in between.

  After the region its output holds the layer of T0 … T3, which is what the reference's first layer is, by definition;
  no other buffer has changed.
-/
import proofs.«137457_j82411832476341_1_alg».proof.Proof.Region0
import proofs.«137457_j82411832476341_1_alg».proof.Proof.Region1
import proofs.«137457_j82411832476341_1_alg».proof.Proof.Region2
import proofs.«137457_j82411832476341_1_alg».proof.Proof.Gen.ReferenceIdeal.Read
import Idealize.ShloMosaic.Lib.StableHlo.Run

set_option maxRecDepth 16384

noncomputable section

namespace Cert.Bridge.Host

open Idealize.ShloMosaic Idealize.ShloMosaic.TcCoe Idealize.ShloMosaic.StableHlo Idealize.SL.Sem
open Cert.KernelIdeal Cert.KernelIdeal.Gen Cert.Bridge
open Cert.ReferenceIdeal.Read

variable (m : (ℓ : Loc nD τ sig) → Buf (Elt Ideal) ℓ) (ρ : Dev nD → PrngReg) (c : Dev nD)

set_option maxHeartbeats 2000000

/-- Argument 0 as the launch memory holds it. -/
abbrev A0 : (⟨Cert.ReferenceIdeal.S50000x112, .f32⟩ : BufTy).Contents (Elt Ideal) := m ((c : Thread nD τ).loc main_arg0)
/-- Argument 1 as the launch memory holds it. -/
abbrev A1 : (⟨Cert.ReferenceIdeal.S2x600000, .i32⟩ : BufTy).Contents (Elt Ideal) := m ((c : Thread nD τ).loc main_arg1)
/-- Argument 2 as the launch memory holds it. -/
abbrev A2 : (⟨Cert.ReferenceIdeal.S50000x16, .f32⟩ : BufTy).Contents (Elt Ideal) := m ((c : Thread nD τ).loc main_arg2)
/-- Argument 3 as the launch memory holds it. -/
abbrev A3 : (⟨Cert.ReferenceIdeal.S600000, .f32⟩ : BufTy).Contents (Elt Ideal) := m ((c : Thread nD τ).loc main_arg3)
/-- Argument 4 as the launch memory holds it. -/
abbrev A4 : (⟨Cert.ReferenceIdeal.S4x128x128, .f32⟩ : BufTy).Contents (Elt Ideal) := m ((c : Thread nD τ).loc main_arg4)
/-- Argument 5 as the launch memory holds it. -/
abbrev A5 : (⟨Cert.ReferenceIdeal.S128, .f32⟩ : BufTy).Contents (Elt Ideal) := m ((c : Thread nD τ).loc main_arg5)
/-- Argument 6 as the launch memory holds it. -/
abbrev A6 : (⟨Cert.ReferenceIdeal.S4x128x128, .f32⟩ : BufTy).Contents (Elt Ideal) := m ((c : Thread nD τ).loc main_arg6)
/-- Argument 7 as the launch memory holds it. -/
abbrev A7 : (⟨Cert.ReferenceIdeal.S128, .f32⟩ : BufTy).Contents (Elt Ideal) := m ((c : Thread nD τ).loc main_arg7)
/-- Argument 8 as the launch memory holds it. -/
abbrev A8 : (⟨Cert.ReferenceIdeal.S128x64, .f32⟩ : BufTy).Contents (Elt Ideal) := m ((c : Thread nD τ).loc main_arg8)
/-- Argument 9 as the launch memory holds it. -/
abbrev A9 : (⟨Cert.ReferenceIdeal.S64, .f32⟩ : BufTy).Contents (Elt Ideal) := m ((c : Thread nD τ).loc main_arg9)
/-- Argument 10 as the launch memory holds it. -/
abbrev A10 : (⟨Cert.ReferenceIdeal.S128x64, .f32⟩ : BufTy).Contents (Elt Ideal) := m ((c : Thread nD τ).loc main_arg10)
/-- Argument 11 as the launch memory holds it. -/
abbrev A11 : (⟨Cert.ReferenceIdeal.S64, .f32⟩ : BufTy).Contents (Elt Ideal) := m ((c : Thread nD τ).loc main_arg11)

/-! ## The reference's two layers are the layer function of its own Chebyshev terms (by definition) -/

theorem layer1_ref (x0 x1 x2 x3 x4 x5) :
    val_main_v94 (F := Ideal) x0 x1 x2 x3 x4 x5
      = DenseTerm (val_main_v30 x0 x2) (val_main_v46 x0 x1 x2 x3) (val_main_v66 x0 x1 x2 x3) (val_main_v86 x0 x1 x2 x3) x4 x5 := rfl

theorem layer2_ref (x0 x1 x2 x3 x4 x5 x6 x7) :
    val_main_v158 (F := Ideal) x0 x1 x2 x3 x4 x5 x6 x7
      = DenseTerm (val_main_v94 x0 x1 x2 x3 x4 x5) (val_main_v110 x0 x1 x2 x3 x4 x5) (val_main_v130 x0 x1 x2 x3 x4 x5)
          (val_main_v150 x0 x1 x2 x3 x4 x5) x6 x7 := rfl

/-! The `where` of the degree normalisation is a called function; its operations move values between a buffer's own
    type and the value's type. Both types are the same, and the moves are the identity. -/
theorem ob_cst_2 (v : main_cst_2.ty.Contents (Elt Ideal)) :
    (TRef.of (sig := sig) (T := ⟨S_, .f32⟩) main_cst_2).ofBuf (Val := Elt Ideal) v = v := rfl
theorem tb_call0_v0 (v : (⟨S_, .f32⟩ : BufTy).Contents (Elt Ideal)) :
    (TRef.of (sig := sig) (T := ⟨S_, .f32⟩) main_call0_v0).toBuf (Val := Elt Ideal) v = v := rfl
theorem ob_call0_v0 (v : main_call0_v0.ty.Contents (Elt Ideal)) :
    (TRef.of (sig := sig) (T := ⟨S_, .f32⟩) main_call0_v0).ofBuf (Val := Elt Ideal) v = v := rfl
theorem tb_call0_v1 (v : (⟨S50000, .f32⟩ : BufTy).Contents (Elt Ideal)) :
    (TRef.of (sig := sig) (T := ⟨S50000, .f32⟩) main_call0_v1).toBuf (Val := Elt Ideal) v = v := rfl
theorem ob_call0_v1 (v : main_call0_v1.ty.Contents (Elt Ideal)) :
    (TRef.of (sig := sig) (T := ⟨S50000, .f32⟩) main_call0_v1).ofBuf (Val := Elt Ideal) v = v := rfl
theorem ob_v8 (v : main_v8.ty.Contents (Elt Ideal)) :
    (TRef.of (sig := sig) (T := ⟨S50000, .i1⟩) main_v8).ofBuf (Val := Elt Ideal) v = v := rfl
theorem ob_v11 (v : main_v11.ty.Contents (Elt Ideal)) :
    (TRef.of (sig := sig) (T := ⟨S50000, .f32⟩) main_v11).ofBuf (Val := Elt Ideal) v = v := rfl
theorem tb_v12 (v : (⟨S50000, .f32⟩ : BufTy).Contents (Elt Ideal)) :
    (TRef.of (sig := sig) (T := ⟨S50000, .f32⟩) main_v12).toBuf (Val := Elt Ideal) v = v := rfl

/-! ## Running a list of operations in two parts -/

theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

/-! ## The boundaries inside the host operations before region 0 -/

/-- After the first stretch: the index vectors, the degrees and d^(−1/2) before the selection. -/
def X1 : Valuation τ sig (Elt Ideal) := W1 m ρ c
/-- After the selection of d^(−1/2) where the degree is positive. -/
def X2 : Valuation τ sig (Elt Ideal) := StableHlo.after hostOps0_1 (X1 m ρ c)
/-- After the edge weights w and T0. -/
def Y1 : Valuation τ sig (Elt Ideal) := StableHlo.after ((hostOps0_2 (F := Ideal)).take 22) (X2 m ρ c)
/-- After T1. -/
def Y2 : Valuation τ sig (Elt Ideal) := StableHlo.after (((hostOps0_2 (F := Ideal)).drop 22).take 16) (Y1 m ρ c)
/-- After T2. -/
def Y3 : Valuation τ sig (Elt Ideal) := StableHlo.after (((hostOps0_2 (F := Ideal)).drop 38).take 20) (Y2 m ρ c)

/-- Region 0's entry contents are what the last operations (those of T3) make of the contents after T2. -/
theorem W3_eq : W3 m ρ c = StableHlo.after ((hostOps0_2 (F := Ideal)).drop 58) (Y3 m ρ c) := by
  have hl : (hostOps0_2 (F := Ideal)) = (hostOps0_2 (F := Ideal)).take 22 ++ (((hostOps0_2 (F := Ideal)).drop 22).take 16
      ++ (((hostOps0_2 (F := Ideal)).drop 38).take 20 ++ (hostOps0_2 (F := Ideal)).drop 58)) := by rfl
  unfold Y3 Y2 Y1
  rw [← after_append, ← after_append, ← after_append, ← hl]
  rfl

/-! ### After the first stretch -/

theorem X1_v1 : X1 m ρ c (Proc.devRef .tc main_v1) = val_main_v1 (A1 m c) := by
  unfold X1
  after_results_simp
  try rfl
theorem X1_v3 : X1 m ρ c (Proc.devRef .tc main_v3) = val_main_v3 (A1 m c) := by
  unfold X1
  after_results_simp
  try rfl
theorem X1_v8 : X1 m ρ c (Proc.devRef .tc main_v8) = val_main_v8 (A1 m c) (A3 m c) := by
  unfold X1
  after_results_simp
  try rfl
theorem X1_v11 : X1 m ρ c (Proc.devRef .tc main_v11) = val_main_v11 (A1 m c) (A3 m c) := by
  unfold X1
  after_results_simp
  try rfl
theorem X1_cst_2 : X1 m ρ c (Proc.devRef .tc main_cst_2) = val_main_cst_2 := by
  unfold X1
  after_results_simp
  try rfl
theorem X1_arg0 : X1 m ρ c (Proc.devRef .tc main_arg0) = A0 m c := by
  unfold X1
  after_results_simp
  try rfl
theorem X1_arg2 : X1 m ρ c (Proc.devRef .tc main_arg2) = A2 m c := by
  unfold X1
  after_results_simp
  try rfl
theorem X1_arg3 : X1 m ρ c (Proc.devRef .tc main_arg3) = A3 m c := by
  unfold X1
  after_results_simp
  try rfl

/-! ### After the selection -/

theorem X2_v12 : X2 m ρ c (Proc.devRef .tc main_v12) = val_main_v12 (A1 m c) (A3 m c) := by
  unfold X2
  after_results_simp
  simp only [ob_cst_2, tb_call0_v0, ob_call0_v0, tb_call0_v1, ob_call0_v1, ob_v8, ob_v11, tb_v12]
  rw [X1_v8, X1_v11, X1_cst_2]
  try rfl
theorem X2_v1 : X2 m ρ c (Proc.devRef .tc main_v1) = val_main_v1 (A1 m c) := by
  unfold X2
  after_results_simp
  exact X1_v1 m ρ c
theorem X2_v3 : X2 m ρ c (Proc.devRef .tc main_v3) = val_main_v3 (A1 m c) := by
  unfold X2
  after_results_simp
  exact X1_v3 m ρ c
theorem X2_arg0 : X2 m ρ c (Proc.devRef .tc main_arg0) = A0 m c := by
  unfold X2
  after_results_simp
  exact X1_arg0 m ρ c
theorem X2_arg2 : X2 m ρ c (Proc.devRef .tc main_arg2) = A2 m c := by
  unfold X2
  after_results_simp
  exact X1_arg2 m ρ c
theorem X2_arg3 : X2 m ρ c (Proc.devRef .tc main_arg3) = A3 m c := by
  unfold X2
  after_results_simp
  exact X1_arg3 m ρ c

/-! ### After the edge weights and T0 -/

theorem Y1_v29 : Y1 m ρ c (Proc.devRef .tc main_v29) = val_main_v29 (A1 m c) (A3 m c) := by
  unfold Y1
  simp only [hostOps0_2, List.take_succ_cons, List.take_zero, List.drop_succ_cons, List.drop_zero]
  after_results_simp
  rw [X2_v12, X2_v1, X2_v3, X2_arg3]
  try rfl
/-- T0 is made of the two argument arrays alone; the operations before it write neither. -/
theorem Y1_v30 : Y1 m ρ c (Proc.devRef .tc main_v30) = val_main_v30 (A0 m c) (A2 m c) := by
  unfold Y1
  simp only [hostOps0_2, List.take_succ_cons, List.take_zero, List.drop_succ_cons, List.drop_zero]
  after_results_simp
  show concatenate S50000x128 1 [⟨S50000x112, X2 m ρ c (Proc.devRef .tc main_arg0)⟩, ⟨S50000x16, X2 m ρ c (Proc.devRef .tc main_arg2)⟩]
    concatenates_S50000x112_S50000x16_S50000x128_d1 = _
  rw [X2_arg0, X2_arg2]
  rfl
theorem Y1_v1 : Y1 m ρ c (Proc.devRef .tc main_v1) = val_main_v1 (A1 m c) := by
  unfold Y1
  simp only [hostOps0_2, List.take_succ_cons, List.take_zero, List.drop_succ_cons, List.drop_zero]
  after_results_simp
  exact X2_v1 m ρ c
theorem Y1_v3 : Y1 m ρ c (Proc.devRef .tc main_v3) = val_main_v3 (A1 m c) := by
  unfold Y1
  simp only [hostOps0_2, List.take_succ_cons, List.take_zero, List.drop_succ_cons, List.drop_zero]
  after_results_simp
  exact X2_v3 m ρ c

/-! ### After T1 -/

theorem Y2_v43 : Y2 m ρ c (Proc.devRef .tc main_v43) = val_main_v46 (A0 m c) (A1 m c) (A2 m c) (A3 m c) := by
  unfold Y2
  simp only [hostOps0_2, List.take_succ_cons, List.take_zero, List.drop_succ_cons, List.drop_zero]
  after_results_simp
  rw [Y1_v29, Y1_v1, Y1_v3, Y1_v30]
  try rfl
theorem Y2_v1 : Y2 m ρ c (Proc.devRef .tc main_v1) = val_main_v1 (A1 m c) := by
  unfold Y2
  simp only [hostOps0_2, List.take_succ_cons, List.take_zero, List.drop_succ_cons, List.drop_zero]
  after_results_simp
  exact Y1_v1 m ρ c
theorem Y2_v3 : Y2 m ρ c (Proc.devRef .tc main_v3) = val_main_v3 (A1 m c) := by
  unfold Y2
  simp only [hostOps0_2, List.take_succ_cons, List.take_zero, List.drop_succ_cons, List.drop_zero]
  after_results_simp
  exact Y1_v3 m ρ c
theorem Y2_v29 : Y2 m ρ c (Proc.devRef .tc main_v29) = val_main_v29 (A1 m c) (A3 m c) := by
  unfold Y2
  simp only [hostOps0_2, List.take_succ_cons, List.take_zero, List.drop_succ_cons, List.drop_zero]
  after_results_simp
  exact Y1_v29 m ρ c
theorem Y2_v30 : Y2 m ρ c (Proc.devRef .tc main_v30) = val_main_v30 (A0 m c) (A2 m c) := by
  unfold Y2
  simp only [hostOps0_2, List.take_succ_cons, List.take_zero, List.drop_succ_cons, List.drop_zero]
  after_results_simp
  exact Y1_v30 m ρ c

/-! ### After T2 -/

theorem Y3_v59 : Y3 m ρ c (Proc.devRef .tc main_v59) = val_main_v66 (A0 m c) (A1 m c) (A2 m c) (A3 m c) := by
  unfold Y3
  simp only [hostOps0_2, List.take_succ_cons, List.take_zero, List.drop_succ_cons, List.drop_zero]
  after_results_simp
  rw [Y2_v29, Y2_v1, Y2_v3, Y2_v43, Y2_v30]
  try rfl
theorem Y3_v1 : Y3 m ρ c (Proc.devRef .tc main_v1) = val_main_v1 (A1 m c) := by
  unfold Y3
  simp only [hostOps0_2, List.take_succ_cons, List.take_zero, List.drop_succ_cons, List.drop_zero]
  after_results_simp
  exact Y2_v1 m ρ c
theorem Y3_v3 : Y3 m ρ c (Proc.devRef .tc main_v3) = val_main_v3 (A1 m c) := by
  unfold Y3
  simp only [hostOps0_2, List.take_succ_cons, List.take_zero, List.drop_succ_cons, List.drop_zero]
  after_results_simp
  exact Y2_v3 m ρ c
theorem Y3_v29 : Y3 m ρ c (Proc.devRef .tc main_v29) = val_main_v29 (A1 m c) (A3 m c) := by
  unfold Y3
  simp only [hostOps0_2, List.take_succ_cons, List.take_zero, List.drop_succ_cons, List.drop_zero]
  after_results_simp
  exact Y2_v29 m ρ c
theorem Y3_v30 : Y3 m ρ c (Proc.devRef .tc main_v30) = val_main_v30 (A0 m c) (A2 m c) := by
  unfold Y3
  simp only [hostOps0_2, List.take_succ_cons, List.take_zero, List.drop_succ_cons, List.drop_zero]
  after_results_simp
  exact Y2_v30 m ρ c
theorem Y3_v43 : Y3 m ρ c (Proc.devRef .tc main_v43) = val_main_v46 (A0 m c) (A1 m c) (A2 m c) (A3 m c) := by
  unfold Y3
  simp only [hostOps0_2, List.take_succ_cons, List.take_zero, List.drop_succ_cons, List.drop_zero]
  after_results_simp
  exact Y2_v43 m ρ c

/-! ### Region 0's entry -/

theorem W3_v75 : W3 m ρ c (Proc.devRef .tc main_v75) = val_main_v86 (A0 m c) (A1 m c) (A2 m c) (A3 m c) := by
  rw [W3_eq]
  simp only [hostOps0_2, List.take_succ_cons, List.take_zero, List.drop_succ_cons, List.drop_zero]
  after_results_simp
  rw [Y3_v29, Y3_v1, Y3_v3, Y3_v59, Y3_v43]
  try rfl
theorem W3_v1 : W3 m ρ c (Proc.devRef .tc main_v1) = val_main_v1 (A1 m c) := by
  rw [W3_eq]
  simp only [hostOps0_2, List.take_succ_cons, List.take_zero, List.drop_succ_cons, List.drop_zero]
  after_results_simp
  exact Y3_v1 m ρ c
theorem W3_v3 : W3 m ρ c (Proc.devRef .tc main_v3) = val_main_v3 (A1 m c) := by
  rw [W3_eq]
  simp only [hostOps0_2, List.take_succ_cons, List.take_zero, List.drop_succ_cons, List.drop_zero]
  after_results_simp
  exact Y3_v3 m ρ c
theorem W3_v29 : W3 m ρ c (Proc.devRef .tc main_v29) = val_main_v29 (A1 m c) (A3 m c) := by
  rw [W3_eq]
  simp only [hostOps0_2, List.take_succ_cons, List.take_zero, List.drop_succ_cons, List.drop_zero]
  after_results_simp
  exact Y3_v29 m ρ c
theorem W3_v30 : W3 m ρ c (Proc.devRef .tc main_v30) = val_main_v30 (A0 m c) (A2 m c) := by
  rw [W3_eq]
  simp only [hostOps0_2, List.take_succ_cons, List.take_zero, List.drop_succ_cons, List.drop_zero]
  after_results_simp
  exact Y3_v30 m ρ c
theorem W3_v43 : W3 m ρ c (Proc.devRef .tc main_v43) = val_main_v46 (A0 m c) (A1 m c) (A2 m c) (A3 m c) := by
  rw [W3_eq]
  simp only [hostOps0_2, List.take_succ_cons, List.take_zero, List.drop_succ_cons, List.drop_zero]
  after_results_simp
  exact Y3_v43 m ρ c
theorem W3_v59 : W3 m ρ c (Proc.devRef .tc main_v59) = val_main_v66 (A0 m c) (A1 m c) (A2 m c) (A3 m c) := by
  rw [W3_eq]
  simp only [hostOps0_2, List.take_succ_cons, List.take_zero, List.drop_succ_cons, List.drop_zero]
  after_results_simp
  exact Y3_v59 m ρ c
theorem W3_arg4 : W3 m ρ c (Proc.devRef .tc main_arg4) = A4 m c := by
  after_results_simp
  try rfl
theorem W3_arg5 : W3 m ρ c (Proc.devRef .tc main_arg5) = A5 m c := by
  after_results_simp
  try rfl
theorem W3_arg6 : W3 m ρ c (Proc.devRef .tc main_arg6) = A6 m c := by
  after_results_simp
  try rfl
theorem W3_arg7 : W3 m ρ c (Proc.devRef .tc main_arg7) = A7 m c := by
  after_results_simp
  try rfl
theorem W3_arg8 : W3 m ρ c (Proc.devRef .tc main_arg8) = A8 m c := by
  after_results_simp
  try rfl
theorem W3_arg9 : W3 m ρ c (Proc.devRef .tc main_arg9) = A9 m c := by
  after_results_simp
  try rfl
theorem W3_arg10 : W3 m ρ c (Proc.devRef .tc main_arg10) = A10 m c := by
  after_results_simp
  try rfl
theorem W3_arg11 : W3 m ρ c (Proc.devRef .tc main_arg11) = A11 m c := by
  after_results_simp
  try rfl

/-! ## Region 0's exit: its output holds the first layer; nothing else has changed -/

theorem W4_v76 : W4 m ρ c (Proc.devRef .tc main_v76) = val_main_v94 (A0 m c) (A1 m c) (A2 m c) (A3 m c) (A4 m c) (A5 m c) := by
  refine (W4_arr m ρ c 6).trans ((Region0.final (V3 m ρ) c).trans ?_)
  rw [layer1_ref]
  show DenseTerm (W3 m ρ c (Proc.devRef .tc main_v30)) (W3 m ρ c (Proc.devRef .tc main_v43)) (W3 m ρ c (Proc.devRef .tc main_v59))
    (W3 m ρ c (Proc.devRef .tc main_v75)) (W3 m ρ c (Proc.devRef .tc main_arg4)) (W3 m ρ c (Proc.devRef .tc main_arg5)) = _
  rw [W3_v30, W3_v43, W3_v59, W3_v75, W3_arg4, W3_arg5]
theorem W4_v1 : W4 m ρ c (Proc.devRef .tc main_v1) = val_main_v1 (A1 m c) :=
  (W4_of_ne m ρ c main_v1 (by decide)).trans (W3_v1 m ρ c)
theorem W4_v3 : W4 m ρ c (Proc.devRef .tc main_v3) = val_main_v3 (A1 m c) :=
  (W4_of_ne m ρ c main_v3 (by decide)).trans (W3_v3 m ρ c)
theorem W4_v29 : W4 m ρ c (Proc.devRef .tc main_v29) = val_main_v29 (A1 m c) (A3 m c) :=
  (W4_of_ne m ρ c main_v29 (by decide)).trans (W3_v29 m ρ c)
theorem W4_arg6 : W4 m ρ c (Proc.devRef .tc main_arg6) = A6 m c :=
  (W4_of_ne m ρ c main_arg6 (by decide)).trans (W3_arg6 m ρ c)
theorem W4_arg7 : W4 m ρ c (Proc.devRef .tc main_arg7) = A7 m c :=
  (W4_of_ne m ρ c main_arg7 (by decide)).trans (W3_arg7 m ρ c)
theorem W4_arg8 : W4 m ρ c (Proc.devRef .tc main_arg8) = A8 m c :=
  (W4_of_ne m ρ c main_arg8 (by decide)).trans (W3_arg8 m ρ c)
theorem W4_arg9 : W4 m ρ c (Proc.devRef .tc main_arg9) = A9 m c :=
  (W4_of_ne m ρ c main_arg9 (by decide)).trans (W3_arg9 m ρ c)
theorem W4_arg10 : W4 m ρ c (Proc.devRef .tc main_arg10) = A10 m c :=
  (W4_of_ne m ρ c main_arg10 (by decide)).trans (W3_arg10 m ρ c)
theorem W4_arg11 : W4 m ρ c (Proc.devRef .tc main_arg11) = A11 m c :=
  (W4_of_ne m ρ c main_arg11 (by decide)).trans (W3_arg11 m ρ c)

end Cert.Bridge.Host

end
-- ==== Proof.Boundary5.lean ====
/-
  The buffers of the idealized kernel program when its second region is entered and when it is left.

  Between the two dense-layer regions the host applies the same propagation to the first layer's output h1:
  T1 = prop h1, T2 = 2·prop T1 − h1, T3 = 2·prop T2 − T1, with the edge weights and index vectors computed before the
  first region. These are the reference's own second-layer terms; the operations are followed one term at a time.
  After the second region its output holds the layer of those terms: the reference's second layer, by definition.
-/
import proofs.«137457_j82411832476341_1_alg».proof.Proof.Boundary3

set_option maxRecDepth 16384

noncomputable section

namespace Cert.Bridge.Host

open Idealize.ShloMosaic Idealize.ShloMosaic.TcCoe Idealize.ShloMosaic.StableHlo Idealize.SL.Sem
open Cert.KernelIdeal Cert.KernelIdeal.Gen Cert.Bridge
open Cert.ReferenceIdeal.Read

variable (m : (ℓ : Loc nD τ sig) → Buf (Elt Ideal) ℓ) (ρ : Dev nD → PrngReg) (c : Dev nD)

set_option maxHeartbeats 2000000

/-! ## The boundaries inside the host operations between the two dense-layer regions -/

/-- After the second layer's T1. -/
def Z1 : Valuation τ sig (Elt Ideal) := StableHlo.after ((hostOps1 (F := Ideal)).take 16) (W4 m ρ c)
/-- After the second layer's T2. -/
def Z2 : Valuation τ sig (Elt Ideal) := StableHlo.after (((hostOps1 (F := Ideal)).drop 16).take 20) (Z1 m ρ c)

/-- Region 1's entry contents are what the last operations (those of T3) make of the contents after T2. -/
theorem W5_eq : W5 m ρ c = StableHlo.after ((hostOps1 (F := Ideal)).drop 36) (Z2 m ρ c) := by
  have hl : (hostOps1 (F := Ideal)) = (hostOps1 (F := Ideal)).take 16 ++ (((hostOps1 (F := Ideal)).drop 16).take 20
      ++ (hostOps1 (F := Ideal)).drop 36) := by rfl
  unfold Z2 Z1
  rw [← after_append, ← after_append, ← hl]

/-! ### After T1 -/

theorem Z1_v89 : Z1 m ρ c (Proc.devRef .tc main_v89) = val_main_v110 (A0 m c) (A1 m c) (A2 m c) (A3 m c) (A4 m c) (A5 m c) := by
  unfold Z1
  simp only [hostOps1, List.take_succ_cons, List.take_zero, List.drop_succ_cons, List.drop_zero]
  after_results_simp
  rw [W4_v76, W4_v1, W4_v3, W4_v29]
  try rfl
theorem Z1_v76 : Z1 m ρ c (Proc.devRef .tc main_v76) = val_main_v94 (A0 m c) (A1 m c) (A2 m c) (A3 m c) (A4 m c) (A5 m c) := by
  unfold Z1
  simp only [hostOps1, List.take_succ_cons, List.take_zero, List.drop_succ_cons, List.drop_zero]
  after_results_simp
  exact W4_v76 m ρ c
theorem Z1_v1 : Z1 m ρ c (Proc.devRef .tc main_v1) = val_main_v1 (A1 m c) := by
  unfold Z1
  simp only [hostOps1, List.take_succ_cons, List.take_zero, List.drop_succ_cons, List.drop_zero]
  after_results_simp
  exact W4_v1 m ρ c
theorem Z1_v3 : Z1 m ρ c (Proc.devRef .tc main_v3) = val_main_v3 (A1 m c) := by
  unfold Z1
  simp only [hostOps1, List.take_succ_cons, List.take_zero, List.drop_succ_cons, List.drop_zero]
  after_results_simp
  exact W4_v3 m ρ c
theorem Z1_v29 : Z1 m ρ c (Proc.devRef .tc main_v29) = val_main_v29 (A1 m c) (A3 m c) := by
  unfold Z1
  simp only [hostOps1, List.take_succ_cons, List.take_zero, List.drop_succ_cons, List.drop_zero]
  after_results_simp
  exact W4_v29 m ρ c

/-! ### After T2 -/

theorem Z2_v105 : Z2 m ρ c (Proc.devRef .tc main_v105) = val_main_v130 (A0 m c) (A1 m c) (A2 m c) (A3 m c) (A4 m c) (A5 m c) := by
  unfold Z2
  simp only [hostOps1, List.take_succ_cons, List.take_zero, List.drop_succ_cons, List.drop_zero]
  after_results_simp
  rw [Z1_v29, Z1_v1, Z1_v3, Z1_v89, Z1_v76]
  try rfl
theorem Z2_v76 : Z2 m ρ c (Proc.devRef .tc main_v76) = val_main_v94 (A0 m c) (A1 m c) (A2 m c) (A3 m c) (A4 m c) (A5 m c) := by
  unfold Z2
  simp only [hostOps1, List.take_succ_cons, List.take_zero, List.drop_succ_cons, List.drop_zero]
  after_results_simp
  exact Z1_v76 m ρ c
theorem Z2_v89 : Z2 m ρ c (Proc.devRef .tc main_v89) = val_main_v110 (A0 m c) (A1 m c) (A2 m c) (A3 m c) (A4 m c) (A5 m c) := by
  unfold Z2
  simp only [hostOps1, List.take_succ_cons, List.take_zero, List.drop_succ_cons, List.drop_zero]
  after_results_simp
  exact Z1_v89 m ρ c
theorem Z2_v1 : Z2 m ρ c (Proc.devRef .tc main_v1) = val_main_v1 (A1 m c) := by
  unfold Z2
  simp only [hostOps1, List.take_succ_cons, List.take_zero, List.drop_succ_cons, List.drop_zero]
  after_results_simp
  exact Z1_v1 m ρ c
theorem Z2_v3 : Z2 m ρ c (Proc.devRef .tc main_v3) = val_main_v3 (A1 m c) := by
  unfold Z2
  simp only [hostOps1, List.take_succ_cons, List.take_zero, List.drop_succ_cons, List.drop_zero]
  after_results_simp
  exact Z1_v3 m ρ c
theorem Z2_v29 : Z2 m ρ c (Proc.devRef .tc main_v29) = val_main_v29 (A1 m c) (A3 m c) := by
  unfold Z2
  simp only [hostOps1, List.take_succ_cons, List.take_zero, List.drop_succ_cons, List.drop_zero]
  after_results_simp
  exact Z1_v29 m ρ c

/-! ### Region 1's entry -/

theorem W5_v121 : W5 m ρ c (Proc.devRef .tc main_v121) = val_main_v150 (A0 m c) (A1 m c) (A2 m c) (A3 m c) (A4 m c) (A5 m c) := by
  rw [W5_eq]
  simp only [hostOps1, List.take_succ_cons, List.take_zero, List.drop_succ_cons, List.drop_zero]
  after_results_simp
  rw [Z2_v29, Z2_v1, Z2_v3, Z2_v105, Z2_v89]
  try rfl
theorem W5_v76 : W5 m ρ c (Proc.devRef .tc main_v76) = val_main_v94 (A0 m c) (A1 m c) (A2 m c) (A3 m c) (A4 m c) (A5 m c) := by
  rw [W5_eq]
  simp only [hostOps1, List.take_succ_cons, List.take_zero, List.drop_succ_cons, List.drop_zero]
  after_results_simp
  exact Z2_v76 m ρ c
theorem W5_v89 : W5 m ρ c (Proc.devRef .tc main_v89) = val_main_v110 (A0 m c) (A1 m c) (A2 m c) (A3 m c) (A4 m c) (A5 m c) := by
  rw [W5_eq]
  simp only [hostOps1, List.take_succ_cons, List.take_zero, List.drop_succ_cons, List.drop_zero]
  after_results_simp
  exact Z2_v89 m ρ c
theorem W5_v105 : W5 m ρ c (Proc.devRef .tc main_v105) = val_main_v130 (A0 m c) (A1 m c) (A2 m c) (A3 m c) (A4 m c) (A5 m c) := by
  rw [W5_eq]
  simp only [hostOps1, List.take_succ_cons, List.take_zero, List.drop_succ_cons, List.drop_zero]
  after_results_simp
  exact Z2_v105 m ρ c
theorem W5_arg6 : W5 m ρ c (Proc.devRef .tc main_arg6) = A6 m c := by
  after_results_simp
  exact W4_arg6 m ρ c
theorem W5_arg7 : W5 m ρ c (Proc.devRef .tc main_arg7) = A7 m c := by
  after_results_simp
  exact W4_arg7 m ρ c
theorem W5_arg8 : W5 m ρ c (Proc.devRef .tc main_arg8) = A8 m c := by
  after_results_simp
  exact W4_arg8 m ρ c
theorem W5_arg9 : W5 m ρ c (Proc.devRef .tc main_arg9) = A9 m c := by
  after_results_simp
  exact W4_arg9 m ρ c
theorem W5_arg10 : W5 m ρ c (Proc.devRef .tc main_arg10) = A10 m c := by
  after_results_simp
  exact W4_arg10 m ρ c
theorem W5_arg11 : W5 m ρ c (Proc.devRef .tc main_arg11) = A11 m c := by
  after_results_simp
  exact W4_arg11 m ρ c

/-! ## Region 1's exit: its output holds the second layer -/

theorem W6_v122 : W6 m ρ c (Proc.devRef .tc main_v122) = val_main_v158 (A0 m c) (A1 m c) (A2 m c) (A3 m c) (A4 m c) (A5 m c) (A6 m c) (A7 m c) := by
  refine (W6_arr m ρ c 6).trans ((Region1.final (V5 m ρ) c).trans ?_)
  rw [layer2_ref]
  show DenseTerm (W5 m ρ c (Proc.devRef .tc main_v76)) (W5 m ρ c (Proc.devRef .tc main_v89)) (W5 m ρ c (Proc.devRef .tc main_v105))
    (W5 m ρ c (Proc.devRef .tc main_v121)) (W5 m ρ c (Proc.devRef .tc main_arg6)) (W5 m ρ c (Proc.devRef .tc main_arg7)) = _
  rw [W5_v76, W5_v89, W5_v105, W5_v121, W5_arg6, W5_arg7]
theorem W6_arg8 : W6 m ρ c (Proc.devRef .tc main_arg8) = A8 m c :=
  (W6_of_ne m ρ c main_arg8 (by decide)).trans (W5_arg8 m ρ c)
theorem W6_arg9 : W6 m ρ c (Proc.devRef .tc main_arg9) = A9 m c :=
  (W6_of_ne m ρ c main_arg9 (by decide)).trans (W5_arg9 m ρ c)
theorem W6_arg10 : W6 m ρ c (Proc.devRef .tc main_arg10) = A10 m c :=
  (W6_of_ne m ρ c main_arg10 (by decide)).trans (W5_arg10 m ρ c)
theorem W6_arg11 : W6 m ρ c (Proc.devRef .tc main_arg11) = A11 m c :=
  (W6_of_ne m ρ c main_arg11 (by decide)).trans (W5_arg11 m ρ c)

end Cert.Bridge.Host

end
-- ==== Proof.Boundary7.lean ====
/-
  The buffers of the idealized kernel program around its head region, and its two results.

  Before the head region the host lays the two head matrices side by side and the two bias rows end to end. The region
  leaves h2·[Wmu | Wlv] + [bmu | blv], h2 the second layer; the two results are its left and right 64 columns.
-/
import proofs.«137457_j82411832476341_1_alg».proof.Proof.Boundary5

set_option maxRecDepth 16384

noncomputable section

namespace Cert.Bridge.Host

open Idealize.ShloMosaic Idealize.ShloMosaic.TcCoe Idealize.ShloMosaic.StableHlo Idealize.SL.Sem
open Cert.KernelIdeal Cert.KernelIdeal.Gen Cert.Bridge
open Cert.ReferenceIdeal.Read

variable (m : (ℓ : Loc nD τ sig) → Buf (Elt Ideal) ℓ) (ρ : Dev nD → PrngReg) (c : Dev nD)

set_option maxHeartbeats 2000000

/-! ## The head region's entry -/

theorem W7_v122 : W7 m ρ c (Proc.devRef .tc main_v122) = val_main_v158 (A0 m c) (A1 m c) (A2 m c) (A3 m c) (A4 m c) (A5 m c) (A6 m c) (A7 m c) := by
  after_results_simp
  exact W6_v122 m ρ c
theorem W7_v123 : W7 m ρ c (Proc.devRef .tc main_v123)
    = concatenate S128x128 1 [⟨S128x64, A8 m c⟩, ⟨S128x64, A10 m c⟩] concatenates_S128x64_S128x64_S128x128_d1 := by
  after_results_simp
  rw [W6_arg8, W6_arg10]
theorem W7_v124 : W7 m ρ c (Proc.devRef .tc main_v124)
    = concatenate S128 0 [⟨S64, A9 m c⟩, ⟨S64, A11 m c⟩] concatenates_S64_S64_S128_d0 := by
  after_results_simp
  show concatenate S128 0 [⟨S64, W6 m ρ c (Proc.devRef .tc main_arg9)⟩, ⟨S64, W6 m ρ c (Proc.devRef .tc main_arg11)⟩]
    concatenates_S64_S64_S128_d0 = _
  rw [W6_arg9, W6_arg11]

/-! ## The head region's exit, and the two results -/

theorem W8_v125 : W8 m ρ c (Proc.devRef .tc main_v125)
    = HeadTerm (val_main_v158 (A0 m c) (A1 m c) (A2 m c) (A3 m c) (A4 m c) (A5 m c) (A6 m c) (A7 m c))
        (concatenate S128x128 1 [⟨S128x64, A8 m c⟩, ⟨S128x64, A10 m c⟩] concatenates_S128x64_S128x64_S128x128_d1)
        (concatenate S128 0 [⟨S64, A9 m c⟩, ⟨S64, A11 m c⟩] concatenates_S64_S64_S128_d0) := by
  refine (W8_arr m ρ c 3).trans ((Region2.final (V7 m ρ) c).trans ?_)
  show HeadTerm (W7 m ρ c (Proc.devRef .tc main_v122)) (W7 m ρ c (Proc.devRef .tc main_v123)) (W7 m ρ c (Proc.devRef .tc main_v124)) = _
  rw [W7_v122, W7_v123, W7_v124]

theorem W9_v126 : W9 m ρ c (Proc.devRef .tc main_v126)
    = extractStridedSlice S50000x64 ![0, 0] (W8 m ρ c (Proc.devRef .tc main_v125)) slices_S50000x128_S50000x64_0_0 := by
  after_results_simp
theorem W9_v127 : W9 m ρ c (Proc.devRef .tc main_v127)
    = extractStridedSlice S50000x64 ![0, 64] (W8 m ρ c (Proc.devRef .tc main_v125)) slices_S50000x128_S50000x64_0_64 := by
  after_results_simp

end Cert.Bridge.Host

end
-- ==== Proof.Heads.lean ====
/-
  The two heads out of one product, at the extended reals.

  The kernel program multiplies H by the two head matrices laid side by side, [Wm | Wl] (128 x 128), adds the two bias
  rows laid end to end, [bm | bl], to every row, and then cuts the result into its left and right 64 columns. Entry
  (r, q) of the left cut is  Σ_k H(r, k)·[Wm | Wl](k, q) + [bm | bl](q)  with q < 64, where the concatenations read their
  first pieces: it is  Σ_k H(r, k)·Wm(k, q) + bm(q), the reference's first head. Entry (r, q) of the right cut reads the
  concatenations at column 64 + q, in their second pieces: the reference's second head. No law of arithmetic is used.
-/
import proofs.«137457_j82411832476341_1_alg».proof.Proof.DenseBlock
import proofs.«137457_j82411832476341_1_alg».proof.Proof.Gen.ReferenceIdeal.Read

noncomputable section

open scoped BigOperators

namespace Cert.Bridge.Heads

open Idealize.ShloMosaic Idealize.ShloMosaic.ValueIdx Cert.Lib.DenseLayer Cert.Bridge
open Cert.ReferenceIdeal Cert.ReferenceIdeal.Read

theorem plain64 : Plain dot_S50000x128_S128x64_S50000x64_1_0_0_1_n_n :=
  Plain.of_fields _ rfl rfl rfl rfl rfl rfl

/-- A 128-entry bias row added to every row, read at (r, q): the row's entry q. -/
theorem biasRows_apply (b : FVec Ideal S128 .f32) (r : Fin 50000) (q : Fin 128) : biasRows b (ix2 r q) = b (ix1 q) :=
  ((val_main_v92_apply (F := Ideal) b (ix2 r q)).trans (val_main_v91_apply (F := Ideal) b _)).trans
    (congrArg b (funext fun a => Fin.ext (by match a with | ⟨0, _⟩ => rfl)))

/-- A 64-entry bias row added to every row, read at (r, q): the row's entry q. -/
theorem bias64_apply (b : FVec Ideal S64 .f32) (r : Fin 50000) (q : Fin 64) : val_main_v161 (F := Ideal) b (ix2 r q) = b (ix1 q) :=
  ((val_main_v161_apply (F := Ideal) b (ix2 r q)).trans (val_main_v160_apply (F := Ideal) b _)).trans
    (congrArg b (funext fun a => Fin.ext (by match a with | ⟨0, _⟩ => rfl)))

/-- The left 64 columns of H·[Wm | Wl] + [bm | bl] are H·Wm + bm. -/
theorem head_left (H : FVec Ideal S50000x128 .f32) (Wm Wl : FVec Ideal S128x64 .f32) (bm bl : FVec Ideal S64 .f32)
    (hc : Shape.Concatenates [S128x64, S128x64] S128x128 1) (hc' : Shape.Concatenates [S64, S64] S128 0)
    (hs : S50000x128.Slices ![0, 0] S50000x64) :
    extractStridedSlice S50000x64 ![0, 0]
        (HeadTerm H (concatenate S128x128 1 [⟨S128x64, Wm⟩, ⟨S128x64, Wl⟩] hc) (concatenate S128 0 [⟨S64, bm⟩, ⟨S64, bl⟩] hc')) hs
      = addf (Host.dotGeneral dot_S50000x128_S128x64_S50000x64_1_0_0_1_n_n none H Wm) (val_main_v161 (F := Ideal) bm) := by
  funext i
  obtain ⟨r, q, rfl⟩ : ∃ (r : Fin 50000) (q : Fin 64), i = ix2 r q := ⟨i 0, i 1, eq_ix2 i⟩
  have hq : q.val < 128 := by have := q.isLt; omega
  rw [extractStridedSlice_apply ![0, 0] _ hs (ix2 r q) (ix2 r ⟨q.val, hq⟩) (fun a => by
        match a with
        | ⟨0, _⟩ => show r.val = 0 + r.val; omega
        | ⟨1, _⟩ => show q.val = 0 + q.val; omega)]
  unfold HeadTerm
  rw [addf_apply, addf_apply, plain_host.dot_apply, plain64.dot_apply, biasRows_apply, bias64_apply]
  refine congrArg₂ (· + ·) (Finset.sum_congr rfl fun k _ => congrArg (H (ix2 r k) * ·) ?_) ?_
  · exact concatenate_pair_apply_left 1 Wm Wl hc (ix2 k ⟨q.val, hq⟩) rfl (ix2 k q) (fun b => by
      match b with
      | ⟨0, _⟩ => rfl
      | ⟨1, _⟩ => rfl)
  · exact concatenate_pair_apply_left 0 bm bl hc' (ix1 ⟨q.val, hq⟩) rfl (ix1 q) (fun b => by
      match b with
      | ⟨0, _⟩ => rfl)

/-- The right 64 columns of H·[Wm | Wl] + [bm | bl] are H·Wl + bl. -/
theorem head_right (H : FVec Ideal S50000x128 .f32) (Wm Wl : FVec Ideal S128x64 .f32) (bm bl : FVec Ideal S64 .f32)
    (hc : Shape.Concatenates [S128x64, S128x64] S128x128 1) (hc' : Shape.Concatenates [S64, S64] S128 0)
    (hs : S50000x128.Slices ![0, 64] S50000x64) :
    extractStridedSlice S50000x64 ![0, 64]
        (HeadTerm H (concatenate S128x128 1 [⟨S128x64, Wm⟩, ⟨S128x64, Wl⟩] hc) (concatenate S128 0 [⟨S64, bm⟩, ⟨S64, bl⟩] hc')) hs
      = addf (Host.dotGeneral dot_S50000x128_S128x64_S50000x64_1_0_0_1_n_n none H Wl) (val_main_v161 (F := Ideal) bl) := by
  funext i
  obtain ⟨r, q, rfl⟩ : ∃ (r : Fin 50000) (q : Fin 64), i = ix2 r q := ⟨i 0, i 1, eq_ix2 i⟩
  have hq : 64 + q.val < 128 := by have := q.isLt; omega
  rw [extractStridedSlice_apply ![0, 64] _ hs (ix2 r q) (ix2 r ⟨64 + q.val, hq⟩) (fun a => by
        match a with
        | ⟨0, _⟩ => show r.val = 0 + r.val; omega
        | ⟨1, _⟩ => show 64 + q.val = 64 + q.val; rfl)]
  unfold HeadTerm
  rw [addf_apply, addf_apply, plain_host.dot_apply, plain64.dot_apply, biasRows_apply, bias64_apply]
  refine congrArg₂ (· + ·) (Finset.sum_congr rfl fun k _ => congrArg (H (ix2 r k) * ·) ?_) ?_
  · exact concatenate_pair_apply_right 1 Wm Wl hc (ix2 k ⟨64 + q.val, hq⟩) rfl rfl (ix2 k q) (fun b hb => by
      match b with
      | ⟨0, _⟩ => rfl
      | ⟨1, _⟩ => exact absurd rfl hb) (by show q.val + 64 = 64 + q.val; omega)
  · exact concatenate_pair_apply_right 0 bm bl hc' (ix1 ⟨64 + q.val, hq⟩) rfl rfl (ix1 q) (fun b hb => by
      match b with
      | ⟨0, _⟩ => exact absurd rfl hb) (by show q.val + 64 = 64 + q.val; omega)

end Cert.Bridge.Heads

end
-- ==== Proof.lean ====
/-
  A two-layer Chebyshev graph convolution (K = 4) with two linear heads, kernel program against reference, at the
  extended reals.

  Both programs build the same operator on node features from the edge list and edge weights: degrees by a
  segment sum, w = −d(src)^(−1/2) · weight · d(dst)^(−1/2) with d^(−1/2) taken as 0 where the degree is not positive,
  and prop t = segment_sum (w · t[src], dst). A layer is  max (((T0·W[0] + T1·W[1]) + T2·W[2]) + T3·W[3] + b, 0)  with
  T0 = h, T1 = prop T0, T2 = 2·prop T1 − T0, T3 = 2·prop T2 − T1. The reference then takes  h2·Wmu + bmu  and
  h2·Wlv + blv; the kernel program takes  h2·[Wmu | Wlv] + [bmu | blv]  and cuts it into its left and right 64 columns.

  The propagation is the same list of host operations in both programs. The dense algebra is done by the host in the
  reference and, in the kernel program, by three regions that each walk 25 blocks of 2000 rows; a row of a layer
  depends on the same row of T0 … T3 only, so the blocks' results are the blocks of the layer (Region0 / Region1 /
  Region2 over DenseBlock). The contents of the buffers at each boundary between segments are read off in Boundary3 / Boundary5 / Boundary7.
  Reading the two concatenations at a column gives the heads (Heads). The two sides are the
  same sums of the same products in the same order: no law of arithmetic beyond that is used, and the precondition
  (finite inputs) is never opened.

  The reference's run and its operations read one at a time are generated modules (Run, Read); the three frames of
  the kernel programs are generated; the reference's frame is its run with the results dropped.
-/
import proofs.«137457_j82411832476341_1_alg».proof.Defs
import proofs.«137457_j82411832476341_1_alg».proof.Proof.Gen.Kernel
import proofs.«137457_j82411832476341_1_alg».proof.Proof.Gen.Kernel.Frame
import proofs.«137457_j82411832476341_1_alg».proof.Proof.Gen.KernelIdeal
import proofs.«137457_j82411832476341_1_alg».proof.Proof.Gen.KernelIdeal.Frame
import proofs.«137457_j82411832476341_1_alg».proof.Proof.Gen.ReferenceIdeal
import proofs.«137457_j82411832476341_1_alg».proof.Proof.Gen.Pre_finite_inputs
import proofs.«137457_j82411832476341_1_alg».proof.Proof.Gen.ReferenceIdeal.Run
import proofs.«137457_j82411832476341_1_alg».proof.Proof.Gen.ReferenceIdeal.Read
import proofs.«137457_j82411832476341_1_alg».proof.Proof.KRun
import proofs.«137457_j82411832476341_1_alg».proof.Proof.Boundary7
import proofs.«137457_j82411832476341_1_alg».proof.Proof.Heads
import Idealize.ShloMosaic.Adequacy
import Idealize.ShloMosaic.Init

noncomputable section

namespace Cert.Proof

open Idealize.ShloMosaic Idealize.ShloMosaic.TcCoe Idealize.SL.Sem

/-! ## The kernel program's two results as the reference's two heads of the arguments -/

namespace Results

open Cert.KernelIdeal Cert.KernelIdeal.Gen Cert.Bridge Cert.Bridge.Host Cert.ReferenceIdeal.Read

variable (m : (ℓ : Loc nD τ sig) → Buf (Elt Ideal) ℓ) (ρ : Dev nD → PrngReg) (c : Dev nD)

/-- The first result: the left 64 columns of the head region's output are h2·Wmu + bmu. -/
theorem mu : W9 m ρ c (Proc.devRef .tc main_v126) = val_main_v162 (A0 m c) (A1 m c) (A2 m c) (A3 m c) (A4 m c) (A5 m c) (A6 m c) (A7 m c) (A8 m c) (A9 m c) := by
  rw [W9_v126, W8_v125]
  exact Cert.Bridge.Heads.head_left (val_main_v158 (A0 m c) (A1 m c) (A2 m c) (A3 m c) (A4 m c) (A5 m c) (A6 m c) (A7 m c)) (A8 m c) (A10 m c) (A9 m c) (A11 m c) _ _ _

/-- The second result: the right 64 columns of the head region's output are h2·Wlv + blv. -/
theorem logvar : W9 m ρ c (Proc.devRef .tc main_v127) = val_main_v166 (A0 m c) (A1 m c) (A2 m c) (A3 m c) (A4 m c) (A5 m c) (A6 m c) (A7 m c) (A10 m c) (A11 m c) := by
  rw [W9_v127, W8_v125]
  exact Cert.Bridge.Heads.head_right (val_main_v158 (A0 m c) (A1 m c) (A2 m c) (A3 m c) (A4 m c) (A5 m c) (A6 m c) (A7 m c)) (A8 m c) (A10 m c) (A9 m c) (A11 m c) _ _ _

end Results

/-! ## The claims -/

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2.2) (Cert.ReferenceIdeal.Value.run (F := Ideal) m ρ)

/-- From memories that agree on the twelve arguments both programs end with the reference's two heads of those
    arguments: the kernel program by its run and the boundary contents, the reference by its generated run. -/
theorem algebraic : Cert.algebraic_KernelIdeal_ReferenceIdeal := by
  intro m ρ m' ρ' _ hagree
  refine ⟨fun c => Cert.ReferenceIdeal.Read.val_main_v162 (F := Ideal)
      (Cert.Bridge.Host.A0 m c) (Cert.Bridge.Host.A1 m c) (Cert.Bridge.Host.A2 m c) (Cert.Bridge.Host.A3 m c) (Cert.Bridge.Host.A4 m c)
      (Cert.Bridge.Host.A5 m c) (Cert.Bridge.Host.A6 m c) (Cert.Bridge.Host.A7 m c) (Cert.Bridge.Host.A8 m c) (Cert.Bridge.Host.A9 m c),
    fun c => Cert.ReferenceIdeal.Read.val_main_v166 (F := Ideal)
      (Cert.Bridge.Host.A0 m c) (Cert.Bridge.Host.A1 m c) (Cert.Bridge.Host.A2 m c) (Cert.Bridge.Host.A3 m c) (Cert.Bridge.Host.A4 m c)
      (Cert.Bridge.Host.A5 m c) (Cert.Bridge.Host.A6 m c) (Cert.Bridge.Host.A7 m c) (Cert.Bridge.Host.A10 m c) (Cert.Bridge.Host.A11 m c),
    ?_, ?_⟩
  · exact (θ_run Cert.KernelIdeal.defs _ _).mono
      (fun r h c => ⟨(h c).1.trans (Results.mu m ρ c), (h c).2.1.trans (Results.logvar m ρ c), (h c).2.2⟩)
      (Cert.KernelIdeal.Results.run_results (F := Ideal) m ρ)
  · refine (θ_run Cert.ReferenceIdeal.defs _ _).mono (fun r h c => ?_) (Cert.ReferenceIdeal.Value.run (F := Ideal) m' ρ')
    obtain ⟨g0, g1, g2, g3, g4, g5, g6, g7, g8, g9, g10, g11⟩ := hagree c
    refine ⟨?_, ?_, (h c).2.2⟩
    · rw [(h c).1, Cert.ReferenceIdeal.Read.val_main_v162_eq, g0, g1, g2, g3, g4, g5, g6, g7, g8, g9]
    · rw [(h c).2.1, Cert.ReferenceIdeal.Read.val_main_v166_eq, g0, g1, g2, g3, g4, g5, g6, g7, g10, g11]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
